-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.sign_bit.Statement Cert.KernelIdeal.S256x4096 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : FVec F S4096x4096 .f32) (main_arg2 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S4096x4096 : Shape := ⟨2, ![4096, 4096]⟩
abbrev S4096 : Shape := ⟨1, ![4096]⟩
abbrev S8192x4096 : Shape := ⟨2, ![8192, 4096]⟩
abbrev S256x4096 : Shape := ⟨2, ![256, 4096]⟩
abbrev S4096x256 : Shape := ⟨2, ![4096, 256]⟩
abbrev S256 : Shape := ⟨1, ![256]⟩
abbrev S256x1 : Shape := ⟨2, ![256, 1]⟩
abbrev S1024x256 : Shape := ⟨2, ![1024, 256]⟩
abbrev S256x2048 : Shape := ⟨2, ![256, 2048]⟩
abbrev S2048 : Shape := ⟨1, ![2048]⟩
abbrev S1024x2048 : Shape := ⟨2, ![1024, 2048]⟩
abbrev S1x2048 : Shape := ⟨2, ![1, 2048]⟩

abbrev nBuf : Space → Nat
  | .hbm => 7
  | .vmem => 13
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S8192x4096, .f32⟩
  | .hbm, ⟨4, _⟩ => ⟨S4096x4096, .bf16⟩
  | .hbm, ⟨5, _⟩ => ⟨S8192x4096, .f32⟩
  | .hbm, ⟨6, _⟩ => ⟨S4x2048x4096, .f32⟩
  | .local _ .vmem, ⟨0, _⟩ => ⟨S256x4096, .f32⟩
  | .local _ .vmem, ⟨1, _⟩ => ⟨S256x4096, .f32⟩
  | .local _ .vmem, ⟨2, _⟩ => ⟨S4096x256, .bf16⟩
  | .local _ .vmem, ⟨3, _⟩ => ⟨S4096x256, .bf16⟩
  | .local _ .vmem, ⟨4, _⟩ => ⟨S1024x256, .f32⟩
  | .local _ .vmem, ⟨5, _⟩ => ⟨S1024x256, .f32⟩
  | .local _ .vmem, ⟨6, _⟩ => ⟨S256x2048, .bf16⟩
  | .local _ .vmem, ⟨7, _⟩ => ⟨S256x2048, .bf16⟩
  | .local _ .vmem, ⟨8, _⟩ => ⟨S2048, .f32⟩
  | .local _ .vmem, ⟨9, _⟩ => ⟨S2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [BitOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨3, ![8, 2, 16], ![false, false, false]⟩

def k1_cond2 (i : grid1.Coords) : BitVec 1 :=
  let arg2 : BitVec 32 := BitVec.ofNat 32 (i 2).val
  let c15_i32 : BitVec 32 := 15#32
  let v14 : BitVec 1 := Scalar.cmpi .eq arg2 c15_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S256x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S4x2048x4096_S8192x4096 : S4x2048x4096.ShapeCasts S8192x4096
  inb_S256x4096_S256x4096_0_0 : ∀ a, (![0, 0] : Fin 2 → Nat) a + S256x4096.size a ≤ S256x4096.size a
  h_S256x4096 : 0 < S256x4096.numel
  reduces_S256x4096_S256 : S256x4096.Reduces [1] S256
  shapeCasts_S256_S256x1 : S256.ShapeCasts S256x1
  broadcasts_S256x1_S256x4096 : S256x1.Broadcasts S256x4096
  bitsLt_bf16_f32 : FTy.bits .bf16 < FTy.bits .f32
  transposes_S256x4096_p1_0_S4096x256 : S256x4096.Transposes [1, 0] S4096x256
  inb_S4096x256_S4096x256_0_0 : ∀ a, (![0, 0] : Fin 2 → Nat) a + S4096x256.size a ≤ S4096x256.size a
  h_S4096x256 : 0 < S4096x256.numel
  packedbf16_S4096x256_S4096x256_0_0 : (Rect.unit (s := S4096x256) ![0, 0] S4096x256.size inb_S4096x256_S4096x256_0_0).PackedRows (EltTy.packing .bf16)
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S1024x2048 : S1x2048.Broadcasts S1024x2048
  shapeCasts_S8192x4096_S4x2048x4096 : S8192x4096.ShapeCasts S4x2048x4096
  dot_S1024x256_S256x2048_S1024x2048_1_0_0_1_n_n_wf : DotDims.WF S1024x256 S256x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x4096.size a
  hwx0_1 : ∀ i : grid0.Coords, EltTy.bits .bf16 = 32 ∨ (Rect.block (s := S4096x4096) S4096x256.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S8192x4096.size a
  hwx1_0 : ∀ i : grid1.Coords, EltTy.bits .f32 = 32 ∨ (Rect.block (s := S8192x4096) S1024x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x2048.size a ≤ S4096x4096.size a
  hwx1_1 : ∀ i : grid1.Coords, EltTy.bits .bf16 = 32 ∨ (Rect.block (s := S4096x4096) S256x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048.size a ≤ S4096.size a
  hwx1_2 : ∀ i : grid1.Coords, EltTy.bits .f32 = 32 ∨ (Rect.block (s := S4096) S2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x2048.size a ≤ S8192x4096.size a
  hwx1_3 : ∀ i : grid1.Coords, EltTy.bits .f32 = 32 ∨ (Rect.block (s := S8192x4096) S1024x2048.size (cc1_transform_3 i) (hinb1_3 i)).WholeWords (EltTy.packing .f32)

variable [Facts₀]

def dot_S1024x256_S256x2048_S1024x2048_1_0_0_1_n_n : DotDims S1024x256 S256x2048 S1024x2048 where
  lhsContracting := [1]
  rhsContracting := [0]
  lhsNonContracting := [0]
  rhsNonContracting := [1]
  lhsBatch := []
  rhsBatch := []
  wf := dot_S1024x256_S256x2048_S1024x2048_1_0_0_1_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S256x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1024x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S1x1x4096 : Shape := ⟨3, ![1, 1, 4096]⟩

abbrev nBuf : Space → Nat
  | .hbm => 25
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S4x2048x4096, .f32⟩
  | .hbm, ⟨22, _⟩ => ⟨S1x1x4096, .f32⟩
  | .hbm, ⟨23, _⟩ => ⟨S4x2048x4096, .f32⟩
  | .hbm, ⟨24, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.K.Bin.lean ====
/-
  The weight-binarization region of the program as printed, for the frame: sixteen grid points, each loading 256 whole weight
  rows and storing their binarized block transposed. Stated at any instance with float words and at any contents `V` of the
  buffers when the region is entered: what the body leaves in the output window's buffer, the body's triple, the region's proof
  data and its body obligation.
-/
import proofs.«135941_j44349832298615_2_alg».proof.Proof.Gen.Kernel.Launch
import proofs.«135941_j44349832298615_2_alg».proof.Proof.Gen.Kernel.Skeleton
import proofs.«135941_j44349832298615_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

local notation "𝕄" => MT nD τ sig Unit (Elt F) ℕ (UR sig nD τ) ℕ

-- the TensorCore's buffer contents when the region is entered: a parameter here, instantiated by the run
variable (V : (c : Dev nD) → (b : Ref sig .tc) → Buf (Elt F) ((c : Thread nD τ).loc b))

/-! ## The weight-binarization region: its windows' blocks -/

/-- Window `w`'s block at grid point `t` (sixteen points: 256 weight rows each), read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds the 256 rows of the point, for any proof data over `V` that leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole input block and the whole output block, as the rectangles the body loads and stores through. -/
abbrev r0_in : Rect S256x4096 := Rect.unit (s := S256x4096) ![0, 0] S256x4096.size inb_S256x4096_S256x4096_0_0
abbrev r0_out : Rect S4096x256 := Rect.unit (s := S4096x256) ![0, 0] S4096x256.size inb_S4096x256_S4096x256_0_0

/-- What the body leaves in the output window's buffer: its one store, the binarized and transposed block, read back. -/
def out0_1 (x0 : Vec F S256x4096 .f32) : Vec F S4096x256 .bf16 :=
  View.canon [⟨r0_out, k0_pay1 (View.ld x0 r0_in)⟩]

/-- The one store covers the buffer. -/
theorem cover0_1 (p0 : Vec F S4096x256 .bf16) (y : S4096x256.Idx) :
    ∃ pc ∈ ([⟨r0_out, p0⟩] : List (View.Piece (Elt F) S4096x256 .bf16)), y ∈ pc.1.set :=
  View.cover_of_tiled [⟨r0_out, p0⟩] S4096x256.size (by rfl) y

set_option maxHeartbeats 1000000 in
/-- The body on whole staging buffers, the input's at contents `x0` and the output's at anything, runs to the continuation
    with the input's untouched and the output's at `out0_1 x0`. -/
theorem sound_kernel0 (c : Dev nD) (E : Set ℕ) (i : grid0.Coords) (arg1 : Memref sig .tc .vmem S256x4096 .f32) (harg1 : arg1.IsWhole) (arg2 : Memref sig .tc .vmem S4096x256 .bf16) (harg2 : arg2.IsWhole)
    (x0 : Vec F S256x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__binarize_kernel i arg1 harg1 arg2 harg2) K := by
  simp only [cc0__binarize_kernel_eq_skeleton]; unfold cc0__binarize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The region's proof data -/

/-- The arrays as the region finds them; after the body the input's buffer at its block and the output's at the binarized,
    transposed block; the invariant is the rest of the scoped memory and the generator register, untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.Mm.lean ====
/-
  The matmul region of the program, for the frame: a grid of 8 row blocks × 2 column blocks × 16 contraction blocks, the
  contraction innermost, with a scratch accumulator carried from one contraction block to the next. Stated at any float
  instance and at any contents `V` of the buffers when the region is entered: the body's triple in its three cases, what the
  accumulator and the output window's buffer hold point by point, the region's proof data, invariant and body obligation.
-/
import proofs.«135941_j44349832298615_2_alg».proof.Proof.Gen.Kernel.Launch
import proofs.«135941_j44349832298615_2_alg».proof.Proof.Gen.Kernel.Skeleton
import proofs.«135941_j44349832298615_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

local notation "𝕄" => MT nD τ sig Unit (Elt F) ℕ (UR sig nD τ) ℕ

-- the TensorCore's buffer contents when the region is entered: a parameter here, instantiated by the run
variable (V : (c : Dev nD) → (b : Ref sig .tc) → Buf (Elt F) ((c : Thread nD τ).loc b))

/-! ## The matmul region: its windows' blocks -/

/-- Window `w`'s block at grid point `t` (8 × 2 × 16 points: row block, column block, contraction block, the last innermost),
    read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's staging buffer holds its block at every point, fetched there or not, for any proof data over `V`
    that leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions, decided over the grid -/

/-- "This is the first contraction block" (the accumulator is zeroed), as the body computes it from the grid coordinates. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)
/-- "This is the last contraction block" (the bias is added and the output block stored). -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-- The input windows are never idle; the output window is idle, and not written back, except at a last contraction block. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-- Each window's current staging buffer at point `t`, spelt as the pipeline passes it, and the scratch accumulator. -/
abbrev ms1_0 (t : Fin cfg1.N) : Memref sig .tc .vmem S1024x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x2048 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x2048 .f32 := win1_3.stage (cfg1.slots t 3)
abbrev hs1_3 (t : Fin cfg1.N) : (ms1_3 t).IsWhole := hstage1_3 ((cfg1.slots t 3).cast nbuf1_3)
abbrev scM1 : Memref sig .tc .vmem S1024x2048 .f32 := Memref.whole cc1_scratch0

/-- The region's class invariant with the scratch accumulator spelt as a buffer owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ d, owns (c : Thread nD τ) scM1 fullShare d)) ∗ (∃ r, prngReg c r)) := by
  unfold Pipeline.ΦA; rw [scopedRest1_eq]; simp only [scM1, owns_whole]; try rfl

/-- The whole-buffer rectangles the body loads and stores through. -/
abbrev rA : Rect S1024x2048 := Rect.unit (s := S1024x2048) ![0, 0] S1024x2048.size inb_S1024x2048_S1024x2048_0_0
abbrev rX : Rect S1024x256 := Rect.unit (s := S1024x256) ![0, 0] S1024x256.size inb_S1024x256_S1024x256_0_0
abbrev rW : Rect S256x2048 := Rect.unit (s := S256x2048) ![0, 0] S256x2048.size inb_S256x2048_S256x2048_0_0
abbrev rB : Rect S2048 := Rect.unit (s := S2048) ![0] S2048.size inb_S2048_S2048_0

theorem hz2 : (![0, 0] : Fin 2 → Nat) = fun _ => 0 := funext fun a => by match a with | ⟨0, _⟩ => rfl | ⟨1, _⟩ => rfl
theorem hz1 : (![0] : Fin 1 → Nat) = fun _ => 0 := funext fun a => by match a with | ⟨0, _⟩ => rfl

/-! ## The body's triple, case by case

Three cases over the contraction coordinate `k`: the first block (the accumulator is zeroed, then the block's product is
added to it), a middle block (the product is added to what the block before left) and the last block (the same, then the
accumulator plus the bias row is stored into the output window's buffer). The output window's buffer is handed back
untouched in the first two. -/

set_option maxHeartbeats 2000000 in
/-- First contraction block: the accumulator ends at the zero block plus the product; the output buffer is untouched. -/
theorem sound_first (c : Dev nD) (E : Set ℕ) (i : grid1.Coords) (arg3 : Memref sig .tc .vmem S1024x256 .f32) (harg3 : arg3.IsWhole) (arg4 : Memref sig .tc .vmem S256x2048 .bf16) (harg4 : arg4.IsWhole) (arg5 : Memref sig .tc .vmem S2048 .f32) (harg5 : arg5.IsWhole) (arg6 : Memref sig .tc .vmem S1024x2048 .f32) (harg6 : arg6.IsWhole) (arg7 : Memref sig .tc .vmem S1024x2048 .f32) (harg7 : arg7.IsWhole)
    (hc0 : cond1_0 i) (hc1 : ¬cond1_1 i)
    (x0 : Vec F S1024x256 .f32) (x1 : Vec F S256x2048 .bf16) (x2 : Vec F S2048 .f32) (xo : Vec F S1024x2048 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xo ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare xo ∗ owns (c : Thread nD τ) arg7 fullShare (k1_pay2 x0 x1 (k1_pay1 (F := F)))) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg3.eq_unread hf0; obtain rfl := harg4.eq_unread hf1; obtain rfl := harg5.eq_unread hf2; obtain rfl := harg6.eq_unread hf3
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  iexists _; isplitr
  swap; · iexact HS
  ipureintro
  sl_unfold_run_names
  rw [View.read_writes_eq_canon _ _ _ (fun y => ⟨_, List.mem_cons_self, View.mem_set_unit_zero hz2 inb_S1024x2048_S1024x2048_0_0 y⟩), View.canon_cons_unit_zero hz2]
  simp only [View.readCov_unit_zero (S := S1024x2048) _ hz2, View.readAt_eq_ld, harg3.read_unread, harg4.read_unread, harg5.read_unread, harg7.read_unread, View.ld_unit_zero (S := S1024x2048) hz2, View.ld_unit_zero (S := S1024x256) hz2, View.ld_unit_zero (S := S256x2048) hz2, View.ld_unit_zero (S := S2048) hz1]

set_option maxHeartbeats 2000000 in
/-- A middle contraction block: the accumulator ends at what it held plus the product; the output buffer is untouched. -/
theorem sound_mid (c : Dev nD) (E : Set ℕ) (i : grid1.Coords) (arg3 : Memref sig .tc .vmem S1024x256 .f32) (harg3 : arg3.IsWhole) (arg4 : Memref sig .tc .vmem S256x2048 .bf16) (harg4 : arg4.IsWhole) (arg5 : Memref sig .tc .vmem S2048 .f32) (harg5 : arg5.IsWhole) (arg6 : Memref sig .tc .vmem S1024x2048 .f32) (harg6 : arg6.IsWhole) (arg7 : Memref sig .tc .vmem S1024x2048 .f32) (harg7 : arg7.IsWhole)
    (hc0 : ¬cond1_0 i) (hc1 : ¬cond1_1 i)
    (x0 : Vec F S1024x256 .f32) (x1 : Vec F S256x2048 .bf16) (x2 : Vec F S2048 .f32) (xo : Vec F S1024x2048 .f32) (xs : Vec F S1024x2048 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xo ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare xo ∗ owns (c : Thread nD τ) arg7 fullShare (k1_pay2 x0 x1 xs)) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg3.eq_unread hf0; obtain rfl := harg4.eq_unread hf1; obtain rfl := harg5.eq_unread hf2; obtain rfl := harg6.eq_unread hf3; obtain rfl := harg7.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  iexists _; isplitr
  swap; · iexact HS
  ipureintro
  sl_unfold_run_names
  rw [View.read_writes_eq_canon _ _ _ (fun y => ⟨_, List.mem_singleton_self _, View.mem_set_unit_zero hz2 inb_S1024x2048_S1024x2048_0_0 y⟩), View.canon_unit_zero hz2]
  simp only [View.readCov_unit_zero (S := S1024x2048) _ hz2, View.readAt_eq_ld, harg3.read_unread, harg4.read_unread, harg5.read_unread, harg7.read_unread, View.ld_unit_zero (S := S1024x2048) hz2, View.ld_unit_zero (S := S1024x256) hz2, View.ld_unit_zero (S := S256x2048) hz2, View.ld_unit_zero (S := S2048) hz1]

set_option maxHeartbeats 2000000 in
/-- The last contraction block: the accumulator ends at what it held plus the product, and the output buffer at that plus the bias row. -/
theorem sound_last (c : Dev nD) (E : Set ℕ) (i : grid1.Coords) (arg3 : Memref sig .tc .vmem S1024x256 .f32) (harg3 : arg3.IsWhole) (arg4 : Memref sig .tc .vmem S256x2048 .bf16) (harg4 : arg4.IsWhole) (arg5 : Memref sig .tc .vmem S2048 .f32) (harg5 : arg5.IsWhole) (arg6 : Memref sig .tc .vmem S1024x2048 .f32) (harg6 : arg6.IsWhole) (arg7 : Memref sig .tc .vmem S1024x2048 .f32) (harg7 : arg7.IsWhole)
    (hc0 : ¬cond1_0 i) (hc1 : cond1_1 i)
    (x0 : Vec F S1024x256 .f32) (x1 : Vec F S256x2048 .bf16) (x2 : Vec F S2048 .f32) (xs : Vec F S1024x2048 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare (k1_pay3 (k1_pay2 x0 x1 xs) x2) ∗ owns (c : Thread nD τ) arg7 fullShare (k1_pay2 x0 x1 xs)) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg3.eq_unread hf0; obtain rfl := harg4.eq_unread hf1; obtain rfl := harg5.eq_unread hf2; obtain rfl := harg7.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    sl_unfold_run_names
    rw [View.read_writes_eq_canon _ _ _ (fun y => ⟨_, List.mem_singleton_self _, View.mem_set_unit_zero hz2 inb_S1024x2048_S1024x2048_0_0 y⟩), View.canon_unit_zero hz2]
    simp only [View.readCov_unit_zero (S := S1024x2048) _ hz2, View.readAt_eq_ld, harg3.read_unread, harg4.read_unread, harg5.read_unread, harg7.read_unread, View.ld_unit_zero (S := S1024x2048) hz2, View.ld_unit_zero (S := S1024x256) hz2, View.ld_unit_zero (S := S256x2048) hz2, View.ld_unit_zero (S := S2048) hz1]
  iexists _; isplitr
  swap; · iexact HS
  ipureintro
  sl_unfold_run_names
  rw [View.read_writes_eq_canon _ _ _ (fun y => ⟨_, List.mem_singleton_self _, View.mem_set_unit_zero hz2 inb_S1024x2048_S1024x2048_0_0 y⟩), View.canon_unit_zero hz2]
  simp only [View.readCov_unit_zero (S := S1024x2048) _ hz2, View.readAt_eq_ld, harg3.read_unread, harg4.read_unread, harg5.read_unread, harg7.read_unread, View.ld_unit_zero (S := S1024x2048) hz2, View.ld_unit_zero (S := S1024x256) hz2, View.ld_unit_zero (S := S256x2048) hz2, View.ld_unit_zero (S := S2048) hz1]

/-! ## What the accumulator holds after each point -/

/-- The scratch accumulator after the body at position `n`: at a first contraction block the zero block plus the block's
    product, otherwise what the position before left plus the block's product. -/
def accAt (c : Dev nD) : (n : ℕ) → n < cfg1.N → Vec F S1024x2048 .f32
  | 0, hn => k1_pay2 (iblk1 V c 0 ⟨0, hn⟩) (iblk1 V c 1 ⟨0, hn⟩) (k1_pay1 (F := F))
  | n + 1, hn =>
    if (n + 1) % 16 = 0 then k1_pay2 (iblk1 V c 0 ⟨n + 1, hn⟩) (iblk1 V c 1 ⟨n + 1, hn⟩) (k1_pay1 (F := F))
    else k1_pay2 (iblk1 V c 0 ⟨n + 1, hn⟩) (iblk1 V c 1 ⟨n + 1, hn⟩) (accAt c n (Nat.lt_of_succ_lt hn))

theorem accAt_first (c : Dev nD) (t : Fin cfg1.N) (h : t.val % 16 = 0) :
    accAt V c t.val t.isLt = k1_pay2 (iblk1 V c 0 t) (iblk1 V c 1 t) (k1_pay1 (F := F)) := by
  obtain ⟨n, hn⟩ := t
  cases n with
  | zero => rfl
  | succ n => exact if_pos h

theorem accAt_next (c : Dev nD) (t : Fin cfg1.N) (h : ¬t.val % 16 = 0) :
    accAt V c t.val t.isLt = k1_pay2 (iblk1 V c 0 t) (iblk1 V c 1 t) (accAt V c (t.val - 1) (Nat.lt_of_le_of_lt (Nat.sub_le _ _) t.isLt)) := by
  obtain ⟨n, hn⟩ := t
  cases n with
  | zero => exact absurd (Nat.zero_mod _) h
  | succ n => exact (if_neg h).trans rfl

/-- A scoped buffer at some contents. -/
abbrev bufAny (c : Dev nD) (r : Ref sig .tc) : sProp 𝕄 :=
  iprop(∃ f : Buf (Elt F) ((c : Thread nD τ).loc r), ((c : Thread nD τ).loc r) ↦{fullShare} f)

/-- The region's invariant before position `n`: before the first point the rest of the scoped memory at anything and the
    generator register; afterwards the same with the accumulator at what the position before left. -/
def PhiS (c : Dev nD) : (n : ℕ) → n ≤ cfg1.N → sProp 𝕄
  | 0, _ => Pipeline.ΦA spec1 c
  | n + 1, hn => iprop(iprop(bufAny c cc0_stg0_0 ∗ bufAny c cc0_stg0_1 ∗ bufAny c cc0_stg1_0 ∗ bufAny c cc0_stg1_1 ∗ owns (c : Thread nD τ) scM1 fullShare (accAt V c n hn)) ∗ (∃ r, prngReg c r))

theorem PhiS_succ (c : Dev nD) (n : ℕ) (hn : n < cfg1.N) :
    PhiS V c (n + 1) hn = iprop(iprop(bufAny c cc0_stg0_0 ∗ bufAny c cc0_stg0_1 ∗ bufAny c cc0_stg1_0 ∗ bufAny c cc0_stg1_1 ∗ owns (c : Thread nD τ) scM1 fullShare (accAt V c n hn)) ∗ (∃ r, prngReg c r)) := rfl

theorem PhiS_pos (c : Dev nD) (n : ℕ) (h : n ≤ cfg1.N) (hz : n ≠ 0) :
    PhiS V c n h = iprop(iprop(bufAny c cc0_stg0_0 ∗ bufAny c cc0_stg0_1 ∗ bufAny c cc0_stg1_0 ∗ bufAny c cc0_stg1_1 ∗ owns (c : Thread nD τ) scM1 fullShare (accAt V c (n - 1) (by omega))) ∗ (∃ r, prngReg c r)) := by
  cases n with
  | zero => exact absurd rfl hz
  | succ n => rfl

/-- Before any position the invariant holds the accumulator at SOME contents. -/
theorem PhiS_any (c : Dev nD) (n : ℕ) (h : n ≤ cfg1.N) :
    PhiS V c n h ⊢ iprop(iprop(bufAny c cc0_stg0_0 ∗ bufAny c cc0_stg0_1 ∗ bufAny c cc0_stg1_0 ∗ bufAny c cc0_stg1_1 ∗ (∃ d, owns (c : Thread nD τ) scM1 fullShare d)) ∗ (∃ r, prngReg c r)) := by
  cases n with
  | zero => rw [show PhiS V c 0 h = Pipeline.ΦA spec1 c from rfl, PhiA1_eq]
  | succ n =>
    rw [PhiS_succ]
    iintro ⟨⟨HA, HB, HC, HD, HS⟩, Hg⟩
    isplitr [Hg]
    · isplitl [HA]; · iexact HA
      isplitl [HB]; · iexact HB
      isplitl [HC]; · iexact HC
      isplitl [HD]; · iexact HD
      iexists _; iexact HS
    iexact Hg

/-! ## The region's proof data -/

/-- The arrays as the region finds them; after the body each input's buffer at its block and the output's at the accumulator
    plus the bias row (read only at a last contraction block: elsewhere the window is idle); the invariant `PhiS`; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (accAt V c t.val t.isLt) (iblk1 V c 2 t)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = k1_pay3 (accAt V c t.val t.isLt) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' buffers hold their blocks; the contraction coordinate says which case the point is in;
    the invariant hands the body the accumulator at what the position before left (at anything at a first block) and takes it
    back at this position's contents; the rest of the scoped memory, the generator register and the core's dues pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 16 = 0
  · have hc0 : cond1_0 (grid1.coords t) := (hcond1_0 t).mpr h0
    have hc1 : ¬cond1_1 (grid1.coords t) := fun h => by have := (hcond1_1 t).mp h; omega
    rw [Dat.leavesExact_idle (dat1 V c) 3 t (idleAt1_3 t hc1) (noFlush1_3 t hc1)]
    rw [accAt_first V c t h0, PhiS_castSucc V c t]
    iintro ⟨HΦ, Ho, ⟨%d0, H0⟩, ⟨%d1, H1⟩, ⟨%d2, H2⟩, ⟨%d3, H3⟩⟩
    ihave HΦ' := (PhiS_any V c _ _) $$ HΦ
    icases HΦ' with ⟨⟨HA, HB, HC, HD, HS⟩, Hg⟩
    iapply (sound_first c Set.univ (grid1.coords t) _ _ _ _ _ _ _ _ _ _ hc0 hc1 (iblk1 V c 0 t) (iblk1 V c 1 t) (iblk1 V c 2 t) _ _)
    isplitl [H0]; · iexact H0
    isplitl [H1]; · iexact H1
    isplitl [H2]; · iexact H2
    isplitl [H3]; · iexact H3
    isplitl [HS]; · iexact HS
    iintro ⟨H0, H1, H2, H3, HS⟩
    isplitl [HA HB HC HD HS Hg]
    · isplitr [Hg]
      · isplitl [HA]; · iexact HA
        isplitl [HB]; · iexact HB
        isplitl [HC]; · iexact HC
        isplitl [HD]; · iexact HD
        iexact HS
      iexact Hg
    isplitl [Ho]; · iexact Ho
    isplitl [H0]; · iexact H0
    isplitl [H1]; · iexact H1
    isplitl [H2]; · iexact H2
    iexists _; iexact H3
  · have hc0 : ¬cond1_0 (grid1.coords t) := fun h => h0 ((hcond1_0 t).mp h)
    have hz : t.val ≠ 0 := fun h => h0 (by rw [h])
    rw [accAt_next V c t h0, PhiS_castSucc V c t, PhiS_pos V c _ _ hz]
    by_cases h1 : t.val % 16 = 15
    · have hc1 : cond1_1 (grid1.coords t) := (hcond1_1 t).mpr h1
      rw [show (dat1 V c).leavesExact 3 t = owns (c : Thread nD τ) (ms1_3 t) fullShare ((dat1 V c).after 3 t) from by
        unfold Dat.leavesExact; rw [liveAt1_3 t hc1], after1_3, accAt_next V c t h0]
      iintro ⟨⟨⟨HA, HB, HC, HD, HS⟩, Hg⟩, Ho, ⟨%d0, H0⟩, ⟨%d1, H1⟩, ⟨%d2, H2⟩, ⟨%d3, H3⟩⟩
      iapply (sound_last c Set.univ (grid1.coords t) _ _ _ _ _ _ _ _ _ _ hc0 hc1 (iblk1 V c 0 t) (iblk1 V c 1 t) (iblk1 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HA HB HC HD HS Hg]
      · isplitr [Hg]
        · isplitl [HA]; · iexact HA
          isplitl [HB]; · iexact HB
          isplitl [HC]; · iexact HC
          isplitl [HD]; · iexact HD
          iexact HS
        iexact Hg
      isplitl [Ho]; · iexact Ho
      isplitl [H0]; · iexact H0
      isplitl [H1]; · iexact H1
      isplitl [H2]; · iexact H2
      iexact H3
    · have hc1 : ¬cond1_1 (grid1.coords t) := fun h => h1 ((hcond1_1 t).mp h)
      rw [Dat.leavesExact_idle (dat1 V c) 3 t (idleAt1_3 t hc1) (noFlush1_3 t hc1)]
      iintro ⟨⟨⟨HA, HB, HC, HD, HS⟩, Hg⟩, Ho, ⟨%d0, H0⟩, ⟨%d1, H1⟩, ⟨%d2, H2⟩, ⟨%d3, H3⟩⟩
      iapply (sound_mid c Set.univ (grid1.coords t) _ _ _ _ _ _ _ _ _ _ hc0 hc1 (iblk1 V c 0 t) (iblk1 V c 1 t) (iblk1 V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HA HB HC HD HS Hg]
      · isplitr [Hg]
        · isplitl [HA]; · iexact HA
          isplitl [HB]; · iexact HB
          isplitl [HC]; · iexact HC
          isplitl [HD]; · iexact HD
          iexact HS
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl]
  exact Idealize.SL.BI.Entails.refl _

/-- After the last point the invariant gives the class invariant back: the accumulator's contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl, PhiA1_eq]
  exact PhiS_any V c _ _

end Cert.Kernel.Fr

end
-- ==== Proof.K.Run.lean ====
/-
  The run of the whole program as printed, for any float instance: @main is a reshape, the weight-binarization region, the matmul region
  (entered from what the first region leaves) and a reshape back. The buffers' contents at each of these boundaries are a fold
  from the launch memory; each region is entered with every unscoped buffer at its boundary's contents and left at the next;
  at the end every unscoped buffer is read against the last boundary's contents, which gives the result's value and the
  arguments unchanged.
-/
import proofs.«135941_j44349832298615_2_alg».proof.Proof.K.Bin
import proofs.«135941_j44349832298615_2_alg».proof.Proof.K.Mm
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The buffers' contents at each boundary of @main: a fold from the launch memory -/

/-- Core `c`'s buffers at launch. -/
abbrev W0 : Dev nD → Valuation τ sig (Elt F) := fun c b => m ((c : Dev nD), b)
/-- After the reshape of the input to two dimensions (the binarization region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the binarization region's exit: its arrays at what its write-backs leave, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At the matmul region's exit (it is entered from the binarization region's exit: no host operation between). -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After the reshape of the result back to three dimensions: the end of @main. -/
abbrev W4 : Dev nD → Valuation τ sig (Elt F) := fun c => StableHlo.after hostOps2 (W3 m c)

/-! ### The arguments end as launched: no host operation writes one, and a region reads it through an input window or not at all -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg0) := W3_of_ne m c main_arg0 (by decide)
    _ = W1 m c (Proc.devRef .tc main_arg0) := W2_of_ne m c main_arg0 (by decide)
    _ = W0 m c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg1) := W3_of_ne m c main_arg1 (by decide)
    _ = W1 m c (Proc.devRef .tc main_arg1) := (W2_arr m c 0).trans (((dat0 (V1 m) c).arrAt_in 0 rfl _).trans (A_eq0 (V1 m) c 0))
    _ = W0 m c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg2) := (W3_arr m c 2).trans (((dat1 (V2 m) c).arrAt_in 2 rfl _).trans (A_eq1 (V2 m) c 2))
    _ = W1 m c (Proc.devRef .tc main_arg2) := W2_of_ne m c main_arg2 (by decide)
    _ = W0 m c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-! ## The proof data family and the thread state -/

abbrev adm : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_noalloc : (hostOps0 : List (HloOp τ sig (Elt F))).Forall fun op => op.fresh = ∅ := by
  simp only [List.Forall]; repeat' constructor
theorem hostOps2_noalloc : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    exact (hout1 (V2 m) c).trans (by
      unfold Pipeline.ΦA
      iintro ⟨Hr, Hp⟩
      isplitl [Hp]; · iexact Hp
      isplitr; · iempintro
      iexact Hr)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_noalloc (W0 m)),
    .region (reg0 m),
    .region (reg1 m),
    .host (hseg hostOps2 hostOps2_sub hostOps2_noalloc (W3 m)) ]
theorem main_run (c : Dev nD) : main (F := F) c = Pipeline.Seg.run (segs m) := (main_chain c).trans (by chain_rfl)

set_option backward.isDefEq.respectTransparency.types false in
/-- From any memory with zero counters every weakly fair execution of @main terminates, nothing faulting, and every final
    state has every unscoped buffer at the last boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c) ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The same run read at the result and at the three arguments: the result's buffer ends at the last boundary's contents, each
    argument's as launched. -/
theorem run_main : θ_run defs (onTc (τ := τ) (main (F := F))) ⟨m, fun _ => 0, ρ⟩ (fun r => ∀ c : Dev nD,
      r.2.mem ((c.tc : Thread nD τ).loc main_v3) = W4 m c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨h c _ (mem_uc main_v3 (by decide)),
     (h c _ (mem_uc main_arg0 (by decide))).trans (W4_main_arg0 m c),
     (h c _ (mem_uc main_arg1 (by decide))).trans (W4_main_arg1 m c),
     (h c _ (mem_uc main_arg2 (by decide))).trans (W4_main_arg2 m c)⟩) (run_all m ρ)

/-- The frame: every execution terminates, nothing faulting, with the three argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_main m ρ)

end Cert.Kernel.Fr

end
-- ==== Proof.KI.Bin.lean ====
/-
  The weight-binarization region of the program, for the frame: sixteen grid points, each loading 256 whole weight rows and
  storing their binarized block transposed. Stated at any float instance and at any contents `V` of the buffers when the
  region is entered: what the body leaves in the output window's buffer, the body's triple, the region's proof data and its
  body obligation.
-/
import proofs.«135941_j44349832298615_2_alg».proof.Proof.Gen.KernelIdeal.Launch
import proofs.«135941_j44349832298615_2_alg».proof.Proof.Gen.KernelIdeal.Skeleton
import proofs.«135941_j44349832298615_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: a parameter here, instantiated by the run
variable (V : (c : Dev nD) → (b : Ref sig .tc) → Buf (Elt F) ((c : Thread nD τ).loc b))

/-! ## The weight-binarization region: its windows' blocks -/

/-- Window `w`'s block at grid point `t` (sixteen points: 256 weight rows each), read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds the 256 rows of the point, for any proof data over `V` that leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole input block and the whole output block, as the rectangles the body loads and stores through. -/
abbrev r0_in : Rect S256x4096 := Rect.unit (s := S256x4096) ![0, 0] S256x4096.size inb_S256x4096_S256x4096_0_0
abbrev r0_out : Rect S4096x256 := Rect.unit (s := S4096x256) ![0, 0] S4096x256.size inb_S4096x256_S4096x256_0_0

/-- What the body leaves in the output window's buffer: its one store, the binarized and transposed block, read back. -/
def out0_1 (x0 : Vec F S256x4096 .f32) : Vec F S4096x256 .bf16 :=
  View.canon [⟨r0_out, k0_pay1 (View.ld x0 r0_in)⟩]

/-- The one store covers the buffer. -/
theorem cover0_1 (p0 : Vec F S4096x256 .bf16) (y : S4096x256.Idx) :
    ∃ pc ∈ ([⟨r0_out, p0⟩] : List (View.Piece (Elt F) S4096x256 .bf16)), y ∈ pc.1.set :=
  View.cover_of_tiled [⟨r0_out, p0⟩] S4096x256.size (by rfl) y

set_option maxHeartbeats 1000000 in
/-- The body on whole staging buffers, the input's at contents `x0` and the output's at anything, runs to the continuation
    with the input's untouched and the output's at `out0_1 x0`. -/
theorem sound_kernel0 (c : Dev nD) (E : Set ℕ) (i : grid0.Coords) (arg1 : Memref sig .tc .vmem S256x4096 .f32) (harg1 : arg1.IsWhole) (arg2 : Memref sig .tc .vmem S4096x256 .bf16) (harg2 : arg2.IsWhole)
    (x0 : Vec F S256x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__binarize_kernel i arg1 harg1 arg2 harg2) K := by
  simp only [cc0__binarize_kernel_eq_skeleton]; unfold cc0__binarize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The region's proof data -/

/-- The arrays as the region finds them; after the body the input's buffer at its block and the output's at the binarized,
    transposed block; the invariant is the rest of the scoped memory and the generator register, untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.Mm.lean ====
/-
  The matmul region of the program, for the frame: a grid of 8 row blocks × 2 column blocks × 16 contraction blocks, the
  contraction innermost, with a scratch accumulator carried from one contraction block to the next. Stated at any float
  instance and at any contents `V` of the buffers when the region is entered: the body's triple in its three cases, what the
  accumulator and the output window's buffer hold point by point, the region's proof data, invariant and body obligation.
-/
import proofs.«135941_j44349832298615_2_alg».proof.Proof.Gen.KernelIdeal.Launch
import proofs.«135941_j44349832298615_2_alg».proof.Proof.Gen.KernelIdeal.Skeleton
import proofs.«135941_j44349832298615_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: a parameter here, instantiated by the run
variable (V : (c : Dev nD) → (b : Ref sig .tc) → Buf (Elt F) ((c : Thread nD τ).loc b))

/-! ## The matmul region: its windows' blocks -/

/-- Window `w`'s block at grid point `t` (8 × 2 × 16 points: row block, column block, contraction block, the last innermost),
    read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's staging buffer holds its block at every point, fetched there or not, for any proof data over `V`
    that leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions, decided over the grid -/

/-- "This is the first contraction block" (the accumulator is zeroed), as the body computes it from the grid coordinates. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)
/-- "This is the last contraction block" (the bias is added and the output block stored). -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-- The input windows are never idle; the output window is idle, and not written back, except at a last contraction block. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-- Each window's current staging buffer at point `t`, spelt as the pipeline passes it, and the scratch accumulator. -/
abbrev ms1_0 (t : Fin cfg1.N) : Memref sig .tc .vmem S1024x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x2048 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x2048 .f32 := win1_3.stage (cfg1.slots t 3)
abbrev hs1_3 (t : Fin cfg1.N) : (ms1_3 t).IsWhole := hstage1_3 ((cfg1.slots t 3).cast nbuf1_3)
abbrev scM1 : Memref sig .tc .vmem S1024x2048 .f32 := Memref.whole cc1_scratch0

/-- The region's class invariant with the scratch accumulator spelt as a buffer owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ d, owns (c : Thread nD τ) scM1 fullShare d)) ∗ (∃ r, prngReg c r)) := by
  unfold Pipeline.ΦA; rw [scopedRest1_eq]; simp only [scM1, owns_whole]; try rfl

/-- The whole-buffer rectangles the body loads and stores through. -/
abbrev rA : Rect S1024x2048 := Rect.unit (s := S1024x2048) ![0, 0] S1024x2048.size inb_S1024x2048_S1024x2048_0_0
abbrev rX : Rect S1024x256 := Rect.unit (s := S1024x256) ![0, 0] S1024x256.size inb_S1024x256_S1024x256_0_0
abbrev rW : Rect S256x2048 := Rect.unit (s := S256x2048) ![0, 0] S256x2048.size inb_S256x2048_S256x2048_0_0
abbrev rB : Rect S2048 := Rect.unit (s := S2048) ![0] S2048.size inb_S2048_S2048_0

theorem hz2 : (![0, 0] : Fin 2 → Nat) = fun _ => 0 := funext fun a => by match a with | ⟨0, _⟩ => rfl | ⟨1, _⟩ => rfl
theorem hz1 : (![0] : Fin 1 → Nat) = fun _ => 0 := funext fun a => by match a with | ⟨0, _⟩ => rfl

/-! ## The body's triple, case by case

Three cases over the contraction coordinate `k`: the first block (the accumulator is zeroed, then the block's product is
added to it), a middle block (the product is added to what the block before left) and the last block (the same, then the
accumulator plus the bias row is stored into the output window's buffer). The output window's buffer is handed back
untouched in the first two. -/

set_option maxHeartbeats 2000000 in
/-- First contraction block: the accumulator ends at the zero block plus the product; the output buffer is untouched. -/
theorem sound_first (c : Dev nD) (E : Set ℕ) (i : grid1.Coords) (arg3 : Memref sig .tc .vmem S1024x256 .f32) (harg3 : arg3.IsWhole) (arg4 : Memref sig .tc .vmem S256x2048 .bf16) (harg4 : arg4.IsWhole) (arg5 : Memref sig .tc .vmem S2048 .f32) (harg5 : arg5.IsWhole) (arg6 : Memref sig .tc .vmem S1024x2048 .f32) (harg6 : arg6.IsWhole) (arg7 : Memref sig .tc .vmem S1024x2048 .f32) (harg7 : arg7.IsWhole)
    (hc0 : cond1_0 i) (hc1 : ¬cond1_1 i)
    (x0 : Vec F S1024x256 .f32) (x1 : Vec F S256x2048 .bf16) (x2 : Vec F S2048 .f32) (xo : Vec F S1024x2048 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xo ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare xo ∗ owns (c : Thread nD τ) arg7 fullShare (k1_pay2 x0 x1 (k1_pay1 (F := F)))) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg3.eq_unread hf0; obtain rfl := harg4.eq_unread hf1; obtain rfl := harg5.eq_unread hf2; obtain rfl := harg6.eq_unread hf3
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  iexists _; isplitr
  swap; · iexact HS
  ipureintro
  sl_unfold_run_names
  rw [View.read_writes_eq_canon _ _ _ (fun y => ⟨_, List.mem_cons_self, View.mem_set_unit_zero hz2 inb_S1024x2048_S1024x2048_0_0 y⟩), View.canon_cons_unit_zero hz2]
  simp only [View.readCov_unit_zero (S := S1024x2048) _ hz2, View.readAt_eq_ld, harg3.read_unread, harg4.read_unread, harg5.read_unread, harg7.read_unread, View.ld_unit_zero (S := S1024x2048) hz2, View.ld_unit_zero (S := S1024x256) hz2, View.ld_unit_zero (S := S256x2048) hz2, View.ld_unit_zero (S := S2048) hz1]

set_option maxHeartbeats 2000000 in
/-- A middle contraction block: the accumulator ends at what it held plus the product; the output buffer is untouched. -/
theorem sound_mid (c : Dev nD) (E : Set ℕ) (i : grid1.Coords) (arg3 : Memref sig .tc .vmem S1024x256 .f32) (harg3 : arg3.IsWhole) (arg4 : Memref sig .tc .vmem S256x2048 .bf16) (harg4 : arg4.IsWhole) (arg5 : Memref sig .tc .vmem S2048 .f32) (harg5 : arg5.IsWhole) (arg6 : Memref sig .tc .vmem S1024x2048 .f32) (harg6 : arg6.IsWhole) (arg7 : Memref sig .tc .vmem S1024x2048 .f32) (harg7 : arg7.IsWhole)
    (hc0 : ¬cond1_0 i) (hc1 : ¬cond1_1 i)
    (x0 : Vec F S1024x256 .f32) (x1 : Vec F S256x2048 .bf16) (x2 : Vec F S2048 .f32) (xo : Vec F S1024x2048 .f32) (xs : Vec F S1024x2048 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xo ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare xo ∗ owns (c : Thread nD τ) arg7 fullShare (k1_pay2 x0 x1 xs)) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg3.eq_unread hf0; obtain rfl := harg4.eq_unread hf1; obtain rfl := harg5.eq_unread hf2; obtain rfl := harg6.eq_unread hf3; obtain rfl := harg7.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  iexists _; isplitr
  swap; · iexact HS
  ipureintro
  sl_unfold_run_names
  rw [View.read_writes_eq_canon _ _ _ (fun y => ⟨_, List.mem_singleton_self _, View.mem_set_unit_zero hz2 inb_S1024x2048_S1024x2048_0_0 y⟩), View.canon_unit_zero hz2]
  simp only [View.readCov_unit_zero (S := S1024x2048) _ hz2, View.readAt_eq_ld, harg3.read_unread, harg4.read_unread, harg5.read_unread, harg7.read_unread, View.ld_unit_zero (S := S1024x2048) hz2, View.ld_unit_zero (S := S1024x256) hz2, View.ld_unit_zero (S := S256x2048) hz2, View.ld_unit_zero (S := S2048) hz1]

set_option maxHeartbeats 2000000 in
/-- The last contraction block: the accumulator ends at what it held plus the product, and the output buffer at that plus the bias row. -/
theorem sound_last (c : Dev nD) (E : Set ℕ) (i : grid1.Coords) (arg3 : Memref sig .tc .vmem S1024x256 .f32) (harg3 : arg3.IsWhole) (arg4 : Memref sig .tc .vmem S256x2048 .bf16) (harg4 : arg4.IsWhole) (arg5 : Memref sig .tc .vmem S2048 .f32) (harg5 : arg5.IsWhole) (arg6 : Memref sig .tc .vmem S1024x2048 .f32) (harg6 : arg6.IsWhole) (arg7 : Memref sig .tc .vmem S1024x2048 .f32) (harg7 : arg7.IsWhole)
    (hc0 : ¬cond1_0 i) (hc1 : cond1_1 i)
    (x0 : Vec F S1024x256 .f32) (x1 : Vec F S256x2048 .bf16) (x2 : Vec F S2048 .f32) (xs : Vec F S1024x2048 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare (k1_pay3 (k1_pay2 x0 x1 xs) x2) ∗ owns (c : Thread nD τ) arg7 fullShare (k1_pay2 x0 x1 xs)) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg3.eq_unread hf0; obtain rfl := harg4.eq_unread hf1; obtain rfl := harg5.eq_unread hf2; obtain rfl := harg7.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    sl_unfold_run_names
    rw [View.read_writes_eq_canon _ _ _ (fun y => ⟨_, List.mem_singleton_self _, View.mem_set_unit_zero hz2 inb_S1024x2048_S1024x2048_0_0 y⟩), View.canon_unit_zero hz2]
    simp only [View.readCov_unit_zero (S := S1024x2048) _ hz2, View.readAt_eq_ld, harg3.read_unread, harg4.read_unread, harg5.read_unread, harg7.read_unread, View.ld_unit_zero (S := S1024x2048) hz2, View.ld_unit_zero (S := S1024x256) hz2, View.ld_unit_zero (S := S256x2048) hz2, View.ld_unit_zero (S := S2048) hz1]
  iexists _; isplitr
  swap; · iexact HS
  ipureintro
  sl_unfold_run_names
  rw [View.read_writes_eq_canon _ _ _ (fun y => ⟨_, List.mem_singleton_self _, View.mem_set_unit_zero hz2 inb_S1024x2048_S1024x2048_0_0 y⟩), View.canon_unit_zero hz2]
  simp only [View.readCov_unit_zero (S := S1024x2048) _ hz2, View.readAt_eq_ld, harg3.read_unread, harg4.read_unread, harg5.read_unread, harg7.read_unread, View.ld_unit_zero (S := S1024x2048) hz2, View.ld_unit_zero (S := S1024x256) hz2, View.ld_unit_zero (S := S256x2048) hz2, View.ld_unit_zero (S := S2048) hz1]

/-! ## What the accumulator holds after each point -/

/-- The scratch accumulator after the body at position `n`: at a first contraction block the zero block plus the block's
    product, otherwise what the position before left plus the block's product. -/
def accAt (c : Dev nD) : (n : ℕ) → n < cfg1.N → Vec F S1024x2048 .f32
  | 0, hn => k1_pay2 (iblk1 V c 0 ⟨0, hn⟩) (iblk1 V c 1 ⟨0, hn⟩) (k1_pay1 (F := F))
  | n + 1, hn =>
    if (n + 1) % 16 = 0 then k1_pay2 (iblk1 V c 0 ⟨n + 1, hn⟩) (iblk1 V c 1 ⟨n + 1, hn⟩) (k1_pay1 (F := F))
    else k1_pay2 (iblk1 V c 0 ⟨n + 1, hn⟩) (iblk1 V c 1 ⟨n + 1, hn⟩) (accAt c n (Nat.lt_of_succ_lt hn))

theorem accAt_first (c : Dev nD) (t : Fin cfg1.N) (h : t.val % 16 = 0) :
    accAt V c t.val t.isLt = k1_pay2 (iblk1 V c 0 t) (iblk1 V c 1 t) (k1_pay1 (F := F)) := by
  obtain ⟨n, hn⟩ := t
  cases n with
  | zero => rfl
  | succ n => exact if_pos h

theorem accAt_next (c : Dev nD) (t : Fin cfg1.N) (h : ¬t.val % 16 = 0) :
    accAt V c t.val t.isLt = k1_pay2 (iblk1 V c 0 t) (iblk1 V c 1 t) (accAt V c (t.val - 1) (Nat.lt_of_le_of_lt (Nat.sub_le _ _) t.isLt)) := by
  obtain ⟨n, hn⟩ := t
  cases n with
  | zero => exact absurd (Nat.zero_mod _) h
  | succ n => exact (if_neg h).trans rfl

/-- A scoped buffer at some contents. -/
abbrev bufAny (c : Dev nD) (r : Ref sig .tc) : sProp 𝕄 :=
  iprop(∃ f : Buf (Elt F) ((c : Thread nD τ).loc r), ((c : Thread nD τ).loc r) ↦{fullShare} f)

/-- The region's invariant before position `n`: before the first point the rest of the scoped memory at anything and the
    generator register; afterwards the same with the accumulator at what the position before left. -/
def PhiS (c : Dev nD) : (n : ℕ) → n ≤ cfg1.N → sProp 𝕄
  | 0, _ => Pipeline.ΦA spec1 c
  | n + 1, hn => iprop(iprop(bufAny c cc0_stg0_0 ∗ bufAny c cc0_stg0_1 ∗ bufAny c cc0_stg1_0 ∗ bufAny c cc0_stg1_1 ∗ owns (c : Thread nD τ) scM1 fullShare (accAt V c n hn)) ∗ (∃ r, prngReg c r))

theorem PhiS_succ (c : Dev nD) (n : ℕ) (hn : n < cfg1.N) :
    PhiS V c (n + 1) hn = iprop(iprop(bufAny c cc0_stg0_0 ∗ bufAny c cc0_stg0_1 ∗ bufAny c cc0_stg1_0 ∗ bufAny c cc0_stg1_1 ∗ owns (c : Thread nD τ) scM1 fullShare (accAt V c n hn)) ∗ (∃ r, prngReg c r)) := rfl

theorem PhiS_pos (c : Dev nD) (n : ℕ) (h : n ≤ cfg1.N) (hz : n ≠ 0) :
    PhiS V c n h = iprop(iprop(bufAny c cc0_stg0_0 ∗ bufAny c cc0_stg0_1 ∗ bufAny c cc0_stg1_0 ∗ bufAny c cc0_stg1_1 ∗ owns (c : Thread nD τ) scM1 fullShare (accAt V c (n - 1) (by omega))) ∗ (∃ r, prngReg c r)) := by
  cases n with
  | zero => exact absurd rfl hz
  | succ n => rfl

/-- Before any position the invariant holds the accumulator at SOME contents. -/
theorem PhiS_any (c : Dev nD) (n : ℕ) (h : n ≤ cfg1.N) :
    PhiS V c n h ⊢ iprop(iprop(bufAny c cc0_stg0_0 ∗ bufAny c cc0_stg0_1 ∗ bufAny c cc0_stg1_0 ∗ bufAny c cc0_stg1_1 ∗ (∃ d, owns (c : Thread nD τ) scM1 fullShare d)) ∗ (∃ r, prngReg c r)) := by
  cases n with
  | zero => rw [show PhiS V c 0 h = Pipeline.ΦA spec1 c from rfl, PhiA1_eq]
  | succ n =>
    rw [PhiS_succ]
    iintro ⟨⟨HA, HB, HC, HD, HS⟩, Hg⟩
    isplitr [Hg]
    · isplitl [HA]; · iexact HA
      isplitl [HB]; · iexact HB
      isplitl [HC]; · iexact HC
      isplitl [HD]; · iexact HD
      iexists _; iexact HS
    iexact Hg

/-! ## The region's proof data -/

/-- The arrays as the region finds them; after the body each input's buffer at its block and the output's at the accumulator
    plus the bias row (read only at a last contraction block: elsewhere the window is idle); the invariant `PhiS`; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (accAt V c t.val t.isLt) (iblk1 V c 2 t)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = k1_pay3 (accAt V c t.val t.isLt) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' buffers hold their blocks; the contraction coordinate says which case the point is in;
    the invariant hands the body the accumulator at what the position before left (at anything at a first block) and takes it
    back at this position's contents; the rest of the scoped memory, the generator register and the core's dues pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 16 = 0
  · have hc0 : cond1_0 (grid1.coords t) := (hcond1_0 t).mpr h0
    have hc1 : ¬cond1_1 (grid1.coords t) := fun h => by have := (hcond1_1 t).mp h; omega
    rw [Dat.leavesExact_idle (dat1 V c) 3 t (idleAt1_3 t hc1) (noFlush1_3 t hc1)]
    rw [accAt_first V c t h0, PhiS_castSucc V c t]
    iintro ⟨HΦ, Ho, ⟨%d0, H0⟩, ⟨%d1, H1⟩, ⟨%d2, H2⟩, ⟨%d3, H3⟩⟩
    ihave HΦ' := (PhiS_any V c _ _) $$ HΦ
    icases HΦ' with ⟨⟨HA, HB, HC, HD, HS⟩, Hg⟩
    iapply (sound_first c Set.univ (grid1.coords t) _ _ _ _ _ _ _ _ _ _ hc0 hc1 (iblk1 V c 0 t) (iblk1 V c 1 t) (iblk1 V c 2 t) _ _)
    isplitl [H0]; · iexact H0
    isplitl [H1]; · iexact H1
    isplitl [H2]; · iexact H2
    isplitl [H3]; · iexact H3
    isplitl [HS]; · iexact HS
    iintro ⟨H0, H1, H2, H3, HS⟩
    isplitl [HA HB HC HD HS Hg]
    · isplitr [Hg]
      · isplitl [HA]; · iexact HA
        isplitl [HB]; · iexact HB
        isplitl [HC]; · iexact HC
        isplitl [HD]; · iexact HD
        iexact HS
      iexact Hg
    isplitl [Ho]; · iexact Ho
    isplitl [H0]; · iexact H0
    isplitl [H1]; · iexact H1
    isplitl [H2]; · iexact H2
    iexists _; iexact H3
  · have hc0 : ¬cond1_0 (grid1.coords t) := fun h => h0 ((hcond1_0 t).mp h)
    have hz : t.val ≠ 0 := fun h => h0 (by rw [h])
    rw [accAt_next V c t h0, PhiS_castSucc V c t, PhiS_pos V c _ _ hz]
    by_cases h1 : t.val % 16 = 15
    · have hc1 : cond1_1 (grid1.coords t) := (hcond1_1 t).mpr h1
      rw [show (dat1 V c).leavesExact 3 t = owns (c : Thread nD τ) (ms1_3 t) fullShare ((dat1 V c).after 3 t) from by
        unfold Dat.leavesExact; rw [liveAt1_3 t hc1], after1_3, accAt_next V c t h0]
      iintro ⟨⟨⟨HA, HB, HC, HD, HS⟩, Hg⟩, Ho, ⟨%d0, H0⟩, ⟨%d1, H1⟩, ⟨%d2, H2⟩, ⟨%d3, H3⟩⟩
      iapply (sound_last c Set.univ (grid1.coords t) _ _ _ _ _ _ _ _ _ _ hc0 hc1 (iblk1 V c 0 t) (iblk1 V c 1 t) (iblk1 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HA HB HC HD HS Hg]
      · isplitr [Hg]
        · isplitl [HA]; · iexact HA
          isplitl [HB]; · iexact HB
          isplitl [HC]; · iexact HC
          isplitl [HD]; · iexact HD
          iexact HS
        iexact Hg
      isplitl [Ho]; · iexact Ho
      isplitl [H0]; · iexact H0
      isplitl [H1]; · iexact H1
      isplitl [H2]; · iexact H2
      iexact H3
    · have hc1 : ¬cond1_1 (grid1.coords t) := fun h => h1 ((hcond1_1 t).mp h)
      rw [Dat.leavesExact_idle (dat1 V c) 3 t (idleAt1_3 t hc1) (noFlush1_3 t hc1)]
      iintro ⟨⟨⟨HA, HB, HC, HD, HS⟩, Hg⟩, Ho, ⟨%d0, H0⟩, ⟨%d1, H1⟩, ⟨%d2, H2⟩, ⟨%d3, H3⟩⟩
      iapply (sound_mid c Set.univ (grid1.coords t) _ _ _ _ _ _ _ _ _ _ hc0 hc1 (iblk1 V c 0 t) (iblk1 V c 1 t) (iblk1 V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HA HB HC HD HS Hg]
      · isplitr [Hg]
        · isplitl [HA]; · iexact HA
          isplitl [HB]; · iexact HB
          isplitl [HC]; · iexact HC
          isplitl [HD]; · iexact HD
          iexact HS
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl]
  exact Idealize.SL.BI.Entails.refl _

/-- After the last point the invariant gives the class invariant back: the accumulator's contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl, PhiA1_eq]
  exact PhiS_any V c _ _

end Cert.KernelIdeal.Fr

end
-- ==== Proof.KI.Run.lean ====
/-
  The run of the whole program, for any float instance: @main is a reshape, the weight-binarization region, the matmul region
  (entered from what the first region leaves) and a reshape back. The buffers' contents at each of these boundaries are a fold
  from the launch memory; each region is entered with every unscoped buffer at its boundary's contents and left at the next;
  at the end every unscoped buffer is read against the last boundary's contents, which gives the result's value and the
  arguments unchanged.
-/
import proofs.«135941_j44349832298615_2_alg».proof.Proof.KI.Bin
import proofs.«135941_j44349832298615_2_alg».proof.Proof.KI.Mm
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary of @main: a fold from the launch memory -/

/-- Core `c`'s buffers at launch. -/
abbrev W0 : Dev nD → Valuation τ sig (Elt F) := fun c b => m ((c : Dev nD), b)
/-- After the reshape of the input to two dimensions (the binarization region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the binarization region's exit: its arrays at what its write-backs leave, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At the matmul region's exit (it is entered from the binarization region's exit: no host operation between). -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After the reshape of the result back to three dimensions: the end of @main. -/
abbrev W4 : Dev nD → Valuation τ sig (Elt F) := fun c => StableHlo.after hostOps2 (W3 m c)

/-! ### The arguments end as launched: no host operation writes one, and a region reads it through an input window or not at all -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg0) := W3_of_ne m c main_arg0 (by decide)
    _ = W1 m c (Proc.devRef .tc main_arg0) := W2_of_ne m c main_arg0 (by decide)
    _ = W0 m c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg1) := W3_of_ne m c main_arg1 (by decide)
    _ = W1 m c (Proc.devRef .tc main_arg1) := (W2_arr m c 0).trans (((dat0 (V1 m) c).arrAt_in 0 rfl _).trans (A_eq0 (V1 m) c 0))
    _ = W0 m c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg2) := (W3_arr m c 2).trans (((dat1 (V2 m) c).arrAt_in 2 rfl _).trans (A_eq1 (V2 m) c 2))
    _ = W1 m c (Proc.devRef .tc main_arg2) := W2_of_ne m c main_arg2 (by decide)
    _ = W0 m c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-! ## The proof data family and the thread state -/

abbrev adm : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_noalloc : (hostOps0 : List (HloOp τ sig (Elt F))).Forall fun op => op.fresh = ∅ := by
  simp only [List.Forall]; repeat' constructor
theorem hostOps2_noalloc : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    exact (hout1 (V2 m) c).trans (by
      unfold Pipeline.ΦA
      iintro ⟨Hr, Hp⟩
      isplitl [Hp]; · iexact Hp
      isplitr; · iempintro
      iexact Hr)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_noalloc (W0 m)),
    .region (reg0 m),
    .region (reg1 m),
    .host (hseg hostOps2 hostOps2_sub hostOps2_noalloc (W3 m)) ]
theorem main_run (c : Dev nD) : main (F := F) c = Pipeline.Seg.run (segs m) := (main_chain c).trans (by chain_rfl)

set_option backward.isDefEq.respectTransparency.types false in
/-- From any memory with zero counters every weakly fair execution of @main terminates, nothing faulting, and every final
    state has every unscoped buffer at the last boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c) ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The same run read at the result and at the three arguments: the result's buffer ends at the last boundary's contents, each
    argument's as launched. -/
theorem run_main : θ_run defs (onTc (τ := τ) (main (F := F))) ⟨m, fun _ => 0, ρ⟩ (fun r => ∀ c : Dev nD,
      r.2.mem ((c.tc : Thread nD τ).loc main_v3) = W4 m c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨h c _ (mem_uc main_v3 (by decide)),
     (h c _ (mem_uc main_arg0 (by decide))).trans (W4_main_arg0 m c),
     (h c _ (mem_uc main_arg1 (by decide))).trans (W4_main_arg1 m c),
     (h c _ (mem_uc main_arg2 (by decide))).trans (W4_main_arg2 m c)⟩) (run_all m ρ)

/-- The frame: every execution terminates, nothing faulting, with the three argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_main m ρ)

end Cert.KernelIdeal.Fr

end
-- ==== Proof.Spec.lean ====
/-
  What both programs compute, as plain functions on extended reals.

  A weight row `row : Fin 4096 → EReal` is centred at its mean (its sum divided by 4096), every centred entry is
  replaced by its sign (−1, 0 or 1) and rescaled by the row's mean absolute deviation (the sum of the absolute
  centred entries divided by 4096). The linear layer then contracts an input row with a binarized weight row over
  the 4096 input features and adds the bias of the output feature.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The divisor 4096.0, kept as the float word both programs write. -/
def n4096 : EReal := Ideal.ofBits .f32 0x45800000#32

/-- The mean of a row: its sum over 4096. -/
def rowMean (row : Fin 4096 → EReal) : EReal := Ideal.div (∑ j : Fin 4096, row j) n4096

/-- A row's entry less the row's mean. -/
def centred (row : Fin 4096 → EReal) (i : Fin 4096) : EReal := row i - rowMean row

/-- The mean absolute deviation of a row: the sum of |centred entry| over 4096 (|a| written max a (−a)). -/
def rowScale (row : Fin 4096 → EReal) : EReal :=
  Ideal.div (∑ j : Fin 4096, max (centred row j) (-(centred row j))) n4096

/-- The binarized row: the sign of each centred entry times the row's scale. -/
def binRow (row : Fin 4096 → EReal) (i : Fin 4096) : EReal := Ideal.sign (centred row i) * rowScale row

/-- Row `o` of a 4096×4096 weight array. -/
def wrow (w : (⟨2, ![4096, 4096]⟩ : Shape).Idx → EReal) (o : Fin 4096) : Fin 4096 → EReal := fun j => w (ix2 o j)

/-- The linear layer at batch `p`, position `s`, output feature `o`. -/
def outAt (x : (⟨3, ![4, 2048, 4096]⟩ : Shape).Idx → EReal) (w : (⟨2, ![4096, 4096]⟩ : Shape).Idx → EReal)
    (b : (⟨1, ![4096]⟩ : Shape).Idx → EReal) (p : Fin 4) (s : Fin 2048) (o : Fin 4096) : EReal :=
  (∑ i : Fin 4096, x (ix3 p s i) * binRow (wrow w o) i) + b (ix1 o)

/-- The whole result array. -/
def outArr (x : (⟨3, ![4, 2048, 4096]⟩ : Shape).Idx → EReal) (w : (⟨2, ![4096, 4096]⟩ : Shape).Idx → EReal)
    (b : (⟨1, ![4096]⟩ : Shape).Idx → EReal) : (⟨3, ![4, 2048, 4096]⟩ : Shape).Idx → EReal :=
  fun j => outAt x w b (j 0) (j 1) (j 2)

end Cert.Spec

end
-- ==== Proof.LibRows.lean ====
/-
  Rows of a matrix at the ideal values: the two "keep the axis" layout steps a row reduction is followed by, and
  the row reductions themselves read at a row.

  A reduction along the columns of an [a, b] matrix leaves a vector of length a. To use it against the matrix again a
  program views it as an [a, 1] column and broadcasts the column along the rows to [a, b]. Read at (i, j) the result is
  entry i of the vector, whatever j is (`column_apply`, `spread_apply`).

  The reductions: the maximum of row i folded from the accumulator's value over the row's entries
  (`rowMaximum_apply`), and the sum of row i (`rowSum_apply`), both with the row's entries written (i, k).
-/
import Idealize.ShloMosaic.PureOps.Ideal.Laws
import Idealize.ShloMosaic.Lib.ValueIdx
import Idealize.ShloMosaic.Lib.Pipeline.Value

noncomputable section

namespace Cert.LibRows

open Idealize.ShloMosaic Idealize.ShloMosaic.ValueIdx

variable {α : Type}

/-- A vector of length `a` viewed as an [a, 1] column reads entry `i` at (i, 0). -/
theorem column_apply {a : ℕ} (v : (⟨1, ![a]⟩ : Shape).Idx → α) (h : (⟨1, ![a]⟩ : Shape).ShapeCasts ⟨2, ![a, 1]⟩)
    (i : Fin a) (u : Fin 1) : shapeCast ⟨2, ![a, 1]⟩ v h (ix2 i u) = v (ix1 i) :=
  shapeCast_apply v h _ _ (by
    have hu : u.val = 0 := by omega
    rw [Shape.rowMajor_val_one, Shape.rowMajor_val_two]
    show i.val = i.val * 1 + u.val
    rw [hu, Nat.mul_one, Nat.add_zero])

/-- An [a, 1] column broadcast along the rows to [a, b] reads the column's entry `i` at (i, j). -/
theorem spread_apply {a b : ℕ} (v : (⟨2, ![a, 1]⟩ : Shape).Idx → α) (h : (⟨2, ![a, 1]⟩ : Shape).Broadcasts ⟨2, ![a, b]⟩)
    (i : Fin a) (j : Fin b) (hb : a ≠ 1) : broadcastTo ⟨2, ![a, b]⟩ v h (ix2 i j) = v (ix2 i (0 : Fin 1)) :=
  broadcastTo_apply v h _ _ fun c => match c with
    | ⟨0, _⟩ => by
        show i.val = if a = 1 then 0 else i.val
        rw [if_neg hb]
    | ⟨1, _⟩ => rfl

/-- The source index over row `i` with `k` inserted on the column axis is (i, k). -/
theorem lift_row {a b : ℕ} (h : Shape.Reduces ⟨2, ![a, b]⟩ [1] ⟨1, ![a]⟩) (i : Fin a) (k : Fin b) :
    h.lift (ix1 i) k = ix2 i k :=
  funext fun c => Fin.ext (by match c with | ⟨0, _⟩ => rfl | ⟨1, _⟩ => rfl)

/-- The maximum along the columns, at row `i`: the fold of `max` from the accumulator's value over the row's entries. -/
theorem rowMaximum_apply {a b : ℕ} (src : FVec Ideal ⟨2, ![a, b]⟩ .f32) (acc : BitVec 32)
    (h : Shape.Reduces ⟨2, ![a, b]⟩ [1] ⟨1, ![a]⟩) (hφ : FKind.Formats .f32) (hacc : acc = FKind.maximumf.neutral .f32 hφ)
    (i : Fin a) :
    multiReduction .maximumf [1] ⟨1, ![a]⟩ src acc h hφ hacc (ix1 i)
      = (Finset.univ : Finset (Fin b)).fold max (Ideal.ofBits .f32 acc) (fun k => src (ix2 i k)) := by
  refine (Ideal.multiReduction_maximumf_single src acc h hφ hacc (ix1 i)).trans ?_
  exact congrArg (Finset.fold max (Ideal.ofBits .f32 acc) · Finset.univ) (funext fun k => congrArg src (lift_row h i k))

/-- The sum along the columns, at row `i`: the sum of the row's entries. -/
theorem rowSum_apply {a b : ℕ} (src : FVec Ideal ⟨2, ![a, b]⟩ .f32) (acc : BitVec 32)
    (h : Shape.Reduces ⟨2, ![a, b]⟩ [1] ⟨1, ![a]⟩) (hφ : FKind.Formats .f32) (hacc : acc = FKind.add.neutral .f32 hφ)
    (i : Fin a) :
    multiReduction .add [1] ⟨1, ![a]⟩ src acc h hφ hacc (ix1 i) = ∑ k : Fin b, src (ix2 i k) := by
  refine (Ideal.multiReduction_add_single src acc h hφ hacc (ix1 i)).trans ?_
  exact Finset.sum_congr rfl fun k _ => congrArg src (lift_row h i k)

end Cert.LibRows

end
-- ==== Proof.LibDot.lean ====
/-
  A matrix product with one contracted axis, read at an entry as a sum over that axis's coordinate.

  A contraction's index set is a shape of rank one here; the sum over it is the sum over `Fin K` once each operand's index
  at contraction position `k` is named by the coordinate of `k` (`contr_sum`).  The hypotheses ask for each operand
  index as a function of that coordinate, which the dimension numbers of a literal product give by computation.
-/
import Idealize.ShloMosaic.PureOps.Ideal.Laws
import Idealize.ShloMosaic.Lib.ValueIdx

noncomputable section

namespace Cert.LibDot

open Idealize.ShloMosaic Idealize.ShloMosaic.ValueIdx
open scoped BigOperators

/-- The contraction sum of a product whose dimension numbers contract ONE axis of extent `K`, as a sum over `Fin K`:
    `L q` and `R q` are the operands' indices at a contraction position whose coordinate is `q`. -/
theorem contr_sum {sl sr so : Shape} (D : DotDims sl sr so) (K : ℕ) (hr : D.contr.rank = 1)
    (hs : D.contr.size ⟨0, by omega⟩ = K) (lhs : sl.Idx → EReal) (rhs : sr.Idx → EReal) (j : so.Idx)
    (L : Fin K → sl.Idx) (R : Fin K → sr.Idx)
    (hL : ∀ (k : D.contr.Idx) (q : Fin K), (k ⟨0, by omega⟩).val = q.val → D.lhsIdx j k = L q)
    (hR : ∀ (k : D.contr.Idx) (q : Fin K), (k ⟨0, by omega⟩).val = q.val → D.rhsIdx j k = R q) :
    ∑ k : D.contr.Idx, lhs (D.lhsIdx j k) * rhs (D.rhsIdx j k) = ∑ q : Fin K, lhs (L q) * rhs (R q) := by
  rw [← Equiv.sum_comp (contrEquiv1 D K hr hs).symm (fun k => lhs (D.lhsIdx j k) * rhs (D.rhsIdx j k))]
  refine Finset.sum_congr rfl fun q _ => ?_
  rw [hL _ q (contrEquiv1_symm_val D K hr hs q), hR _ q (contrEquiv1_symm_val D K hr hs q)]

end Cert.LibDot

end
-- ==== Proof.Payloads.lean ====
/-
  The kernel's arithmetic at the ideal values, read at one index.

  The binarization body takes a [256, 4096] block of weight rows. Each row is centred at its mean (its sum over 4096),
  each centred entry is replaced by its sign and multiplied by the row's mean absolute deviation (the sum of the
  absolute centred entries over 4096), and the block is transposed to [4096, 256]. Read at (i, q) the result is
  sign (centred entry i of row q) times the scale of row q (`pay_bin`).

  The product body starts an accumulator at zero (`pay_zero`), adds to it the product of a [1024, 256] block with a
  [256, 2048] block, at (r, n) the sum over k of x (r, k) · w (k, n) (`pay_acc`), and at the end adds the bias of output
  feature n to every row (`pay_out`).
-/
import proofs.«135941_j44349832298615_2_alg».proof.Proof.Gen.KernelIdeal.Skeleton
import proofs.«135941_j44349832298615_2_alg».proof.Proof.Spec
import proofs.«135941_j44349832298615_2_alg».proof.Proof.LibRows
import proofs.«135941_j44349832298615_2_alg».proof.Proof.LibDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payloads

open Idealize.ShloMosaic Idealize.ShloMosaic.ValueIdx Cert.KernelIdeal Cert.KernelIdeal.Gen

/-! ## The weight binarization -/

/-- The row mean of a [256, 4096] block, spread back over the block: the row's sum over 4096, wherever it is read along
    the row. -/
def meanB (x : FVec Ideal S256x4096 .f32) : FVec Ideal S256x4096 .f32 :=
  broadcastTo S256x4096
    (divf (shapeCast S256x1 (multiReduction .add [1] S256 x 0x00000000#32 reduces_S256x4096_S256 (.inl rfl) rfl) shapeCasts_S256_S256x1)
      (broadcast S256x1 (Scalar.ofBits (F := Ideal) .f32 0x45800000#32)))
    broadcasts_S256x1_S256x4096

/-- Read at (q, j) it is the mean of row q. -/
theorem meanB_apply (x : FVec Ideal S256x4096 .f32) (q : Fin 256) (j : Fin 4096) :
    meanB x (ix2 q j) = Cert.Spec.rowMean (fun k : Fin 4096 => x (ix2 q k)) := by
  unfold meanB
  rw [Cert.LibRows.spread_apply _ _ q j (by decide)]
  show Ideal.div (shapeCast S256x1 _ _ (ix2 q (0 : Fin 1))) _ = _
  rw [Cert.LibRows.column_apply]
  exact congrArg (Ideal.div · Cert.Spec.n4096) (Cert.LibRows.rowSum_apply x _ reduces_S256x4096_S256 (.inl rfl) rfl q)

/-- The block less its row means. -/
def cenB (x : FVec Ideal S256x4096 .f32) : FVec Ideal S256x4096 .f32 := subf x (meanB x)

/-- Read at (q, j) it is entry j of row q centred at the row's mean. -/
theorem cenB_apply (x : FVec Ideal S256x4096 .f32) (q : Fin 256) (j : Fin 4096) :
    cenB x (ix2 q j) = Cert.Spec.centred (fun k : Fin 4096 => x (ix2 q k)) j := by
  show x (ix2 q j) - meanB x (ix2 q j) = _
  rw [meanB_apply]
  rfl

/-- The row means of the absolute centred block: at (q, j) the mean absolute deviation of row q. -/
theorem scaleB_apply (x : FVec Ideal S256x4096 .f32) (q : Fin 256) (j : Fin 4096) :
    meanB (absf (cenB x)) (ix2 q j) = Cert.Spec.rowScale (fun k : Fin 4096 => x (ix2 q k)) := by
  rw [meanB_apply]
  show Ideal.div (∑ k : Fin 4096, max (cenB x (ix2 q k)) (-(cenB x (ix2 q k)))) _ = _
  simp only [cenB_apply]
  rfl

/-- The binarization body written over the centred block and the two row means: the sign term of the centred block
    times the spread mean absolute deviation, narrowed and transposed. -/
theorem k0_pay1_eq (x0 : Vec Ideal S256x4096 .f32) :
    Gen.k0_pay1 (F := Ideal) x0
      = transpose S4096x256 [1, 0]
          (truncf .bf16
            (mulf
              (select (cmpf .ogt (absf (cenB x0)) (broadcast S256x4096 (Scalar.ofBits (F := Ideal) .f32 0x00000000#32)))
                (select (cmpf .olt (cenB x0) (constant S256x4096 .f32 0x00000000#32)) (constant S256x4096 .f32 0xBF800000#32)
                  (constant S256x4096 .f32 0x3F800000#32)) (cenB x0))
              (meanB (absf (cenB x0))))
            bitsLt_bf16_f32)
          transposes_S256x4096_p1_0_S4096x256 := rfl

/-- The binarized block read at (i, q) — column i of the transposed result, row q of the input block — is the sign of
    row q's centred entry i times row q's mean absolute deviation. -/
theorem pay_bin (x0 : Vec Ideal S256x4096 .f32) (i : Fin 4096) (q : Fin 256) :
    Gen.k0_pay1 (F := Ideal) x0 (ix2 i q) = Cert.Spec.binRow (fun j : Fin 4096 => x0 (ix2 q j)) i := by
  rw [k0_pay1_eq, transpose_ix2_apply]
  show Scalar.select (FloatOps.cmpf .ogt (FloatOps.absf (cenB x0 (ix2 q i))) (Scalar.ofBits .f32 0x00000000#32))
        (Scalar.select (FloatOps.cmpf .olt (cenB x0 (ix2 q i)) (Scalar.ofBits .f32 0x00000000#32)) (Scalar.ofBits .f32 0xBF800000#32)
          (Scalar.ofBits .f32 0x3F800000#32)) (cenB x0 (ix2 q i)) * meanB (absf (cenB x0)) (ix2 q i) = _
  rw [Ideal.jnp_sign_eq_sign_f32, scaleB_apply, cenB_apply]
  rfl

/-! ## The product, its accumulator and the bias -/

/-- The zero splat reads 0 everywhere. -/
theorem pay_zero (r : Fin 1024) (n : Fin 2048) : Gen.k1_pay1 (F := Ideal) (ix2 r n) = 0 := by
  unfold Gen.k1_pay1
  rw [shapeCast_self]
  exact Ideal.ofBits_zero_f32

/-- The accumulator plus the bias row spread over the 1024 rows: at (r, n) the accumulator's entry plus bias n. -/
theorem pay_out (a : Vec Ideal S1024x2048 .f32) (bias : Vec Ideal S2048 .f32) (r : Fin 1024) (n : Fin 2048) :
    Gen.k1_pay3 (F := Ideal) a bias (ix2 r n) = a (ix2 r n) + bias (ix1 n) := by
  unfold Gen.k1_pay3
  show a (ix2 r n) + _ = _
  rw [broadcastTo_1b_ab_apply, shapeCast_a_1a_apply]

/-- At output (r, n) and contraction coordinate q the product's left operand is read at (r, q) … -/
theorem dot_lhs (r : Fin 1024) (n : Fin 2048) (k : dot_S1024x256_S256x2048_S1024x2048_1_0_0_1_n_n.contr.Idx) (q : Fin 256)
    (h : (k ⟨0, by decide⟩).val = q.val) :
    dot_S1024x256_S256x2048_S1024x2048_1_0_0_1_n_n.lhsIdx (ix2 r n) k = ix2 r q :=
  funext fun c => Fin.ext (by match c with | ⟨0, _⟩ => rfl | ⟨1, _⟩ => exact h)

/-- … and its right operand at (q, n). -/
theorem dot_rhs (r : Fin 1024) (n : Fin 2048) (k : dot_S1024x256_S256x2048_S1024x2048_1_0_0_1_n_n.contr.Idx) (q : Fin 256)
    (h : (k ⟨0, by decide⟩).val = q.val) :
    dot_S1024x256_S256x2048_S1024x2048_1_0_0_1_n_n.rhsIdx (ix2 r n) k = ix2 q n :=
  funext fun c => Fin.ext (by match c with | ⟨0, _⟩ => exact h | ⟨1, _⟩ => rfl)

/-- One accumulation step at (r, n): the loaded accumulator plus the sum over the 256 contracted coordinates of the
    products x (r, k) · w (k, n); the narrowing of x is the identity on extended reals. -/
theorem pay_acc (x : Vec Ideal S1024x256 .f32) (w : Vec Ideal S256x2048 .bf16) (a : Vec Ideal S1024x2048 .f32) (r : Fin 1024) (n : Fin 2048) :
    Gen.k1_pay2 (F := Ideal) x w a (ix2 r n) = a (ix2 r n) + ∑ k : Fin 256, x (ix2 r k) * w (ix2 k n) := by
  unfold Gen.k1_pay2
  simp only [shapeCast_self]
  show a (ix2 r n) + _ = _
  refine congrArg (a (ix2 r n) + ·) ?_
  refine (Ideal.matmul_constant_zero_apply (φ₁ := .bf16) (φ₂ := .bf16) dot_S1024x256_S256x2048_S1024x2048_1_0_0_1_n_n none
    (truncf .bf16 x bitsLt_bf16_f32) w (ix2 r n)).trans ?_
  exact Cert.LibDot.contr_sum dot_S1024x256_S256x2048_S1024x2048_1_0_0_1_n_n 256 rfl rfl x w (ix2 r n)
    (fun q => ix2 r q) (fun q => ix2 q n) (dot_lhs r n) (dot_rhs r n)

end Cert.KernelIdeal.Payloads

end
-- ==== Proof.KI.ValBin.lean ====
/-
  The weight-binarization region's output array, read at the extended reals: whatever the buffers hold when the region is
  entered, it leaves in its output array, at (input feature i, output feature o), row o of the weight array binarized, at i —
  the transposed binarized weight. Point t of the sixteen handles rows 256·t … 256·t + 255; the sixteen column blocks it
  writes back tile the output array.
-/
import proofs.«135941_j44349832298615_2_alg».proof.Proof.KI.Bin
import proofs.«135941_j44349832298615_2_alg».proof.Proof.Payloads
import proofs.«135941_j44349832298615_2_alg».proof.Proof.Spec
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen Cert.KernelIdeal.Fr

variable (V : (c : Dev nD) → (b : Ref sig .tc) → Buf (Elt Ideal) ((c : Thread nD τ).loc b))

theorem hz : (![0, 0] : Fin 2 → Nat) = fun _ => 0 := funext fun a => by match a with | ⟨0, _⟩ => rfl | ⟨1, _⟩ => rfl

/-- The printed index maps over the sixteen points: the input block is row block t, the output block column block t. -/
theorem idx0 : ∀ t : Fin cfg0.N, win0_0.index t (0 : Fin 2) = t.val ∧ win0_0.index t (1 : Fin 2) = 0
    ∧ win0_1.index t (0 : Fin 2) = 0 ∧ win0_1.index t (1 : Fin 2) = t.val :=
  (by decide +kernel : ∀ t : Fin grid0.N, _)

/-- The transposed binarized weight: at (i, o), row o of `w` binarized, at i. -/
def binT (w : S4096x4096.Idx → EReal) : S4096x4096.Idx → EReal :=
  fun j => Cert.Spec.binRow (Cert.Spec.wrow w (j 1)) (j 0)

/-- Entry (q, j) of the input block at point t is entry (256·t + q, j) of the weight array. -/
theorem iblk0_apply (c : Dev nD) (t : Fin cfg0.N) (q : Fin 256) (j : Fin 4096) (k : S4096x4096.Idx)
    (hk0 : (k 0).val = t.val * 256 + q.val) (hk1 : (k 1).val = j.val) :
    (iblk0 V c 0 t : Vec Ideal S256x4096 .f32) (ix2 q j) = (V c main_arg1 : S4096x4096.Idx → EReal) k := by
  obtain ⟨e0, e1, -, -⟩ := idx0 t
  unfold iblk0
  rw [View.read_apply]
  show V c main_arg1 _ = V c main_arg1 _
  refine congrArg (V c main_arg1) ?_
  funext a
  apply Fin.ext
  match a with
  | ⟨0, _⟩ => show win0_0.index t 0 * 256 + 1 * q.val = (k 0).val; rw [e0, hk0]; omega
  | ⟨1, _⟩ => show win0_0.index t 1 * 4096 + 1 * j.val = (k 1).val; rw [e1, hk1]; omega

/-- Where entry (i, q) of the output block at point t sits in the output array: (i, 256·t + q). -/
theorem emb0_val (t : Fin cfg0.N) (i : Fin 4096) (q : Fin 256) :
    ((((cfg0.win 1).blk t).view.emb (ix2 i q)) 0).val = i.val ∧ ((((cfg0.win 1).blk t).view.emb (ix2 i q)) 1).val = t.val * 256 + q.val := by
  obtain ⟨-, -, e2, e3⟩ := idx0 t
  constructor
  · show win0_1.index t 0 * 4096 + 1 * i.val = i.val; rw [e2]; omega
  · show win0_1.index t 1 * 256 + 1 * q.val = t.val * 256 + q.val; rw [e3]; omega

/-- What point t writes back is block t of the transposed binarized weight. -/
theorem flushed0_eq (c : Dev nD) (t : Fin cfg0.N) :
    (dat0 V c).flushed 1 t = ((cfg0.win 1).blk t).view.read (Elt Ideal) (binT (V c main_arg1)) := by
  show (cfg0.win 1).cut (grid0.coords t) ((dat0 V c).after 1 t) = _
  rw [after0_1]
  unfold out0_1
  rw [View.canon_unit_zero hz]
  simp only [View.ld_unit_zero (S := S256x4096) hz]
  funext y
  obtain ⟨i, q, rfl⟩ : ∃ (i : Fin 4096) (q : Fin 256), y = ix2 i q := ⟨y 0, y 1, eq_ix2 y⟩
  refine (Cert.KernelIdeal.Payloads.pay_bin (iblk0 V c 0 t) i q).trans ?_
  rw [View.read_apply]
  obtain ⟨hE0, hE1⟩ := emb0_val t i q
  have hrow : (fun j : Fin 4096 => (iblk0 V c 0 t : Vec Ideal S256x4096 .f32) (ix2 q j))
      = Cert.Spec.wrow (V c main_arg1) ((((cfg0.win 1).blk t).view.emb (ix2 i q)) 1) := by
    funext j
    exact iblk0_apply V c t q j _ hE1 rfl
  exact (congrArg (fun r => Cert.Spec.binRow r i) hrow).trans (congrArg (Cert.Spec.binRow _) (Fin.ext hE0.symm))

/-- Every entry of the output array lies in the block of the point of its column block. -/
theorem cover0 (i : S4096x4096.Idx) : ∃ t : Fin cfg0.N, (cfg0.win 1).flush t = true ∧ i ∈ ((cfg0.win 1).blk t).view.set := by
  have h0 : (i 0).val < 4096 := (i 0).isLt
  have h1 : (i 1).val < 4096 := (i 1).isLt
  have hN : cfg0.N = 16 := N_0
  have ht : (i 1).val / 256 < cfg0.N := by rw [hN]; omega
  refine ⟨⟨(i 1).val / 256, ht⟩, flush0_1 _, ?_⟩
  obtain ⟨-, -, e2, e3⟩ := idx0 ⟨(i 1).val / 256, ht⟩
  show i ∈ ((View.whole main_v1).slice (win0_1.rect ⟨(i 1).val / 256, ht⟩)).set
  rw [View.set_slice_whole, Rect.mem_set_unit]
  intro a
  match a with
  | ⟨0, _⟩ => show win0_1.index ⟨(i 1).val / 256, ht⟩ 0 * 4096 ≤ (i 0).val ∧ (i 0).val < win0_1.index ⟨(i 1).val / 256, ht⟩ 0 * 4096 + 4096; rw [e2]; omega
  | ⟨1, _⟩ => show win0_1.index ⟨(i 1).val / 256, ht⟩ 1 * 256 ≤ (i 1).val ∧ (i 1).val < win0_1.index ⟨(i 1).val / 256, ht⟩ 1 * 256 + 256; rw [e3]; show (i 1).val / 256 * 256 ≤ (i 1).val ∧ (i 1).val < (i 1).val / 256 * 256 + 256; omega

/-- The region's output array after its last point: the transposed binarized weight. -/
theorem final0 (c : Dev nD) : (dat0 V c).arrAt 1 cfg0.N = binT (V c main_arg1) :=
  (dat0 V c).arrAt_eq_of_cover 1 (binT (V c main_arg1)) (fun t _ => flushed0_eq V c t) cover0

end Cert.KernelIdeal.Val

end
-- ==== Proof.LibBlockSum.lean ====
/-
  A sum over `a * b` consecutive indices, regrouped into `a` consecutive blocks of `b` indices each: the sum of the
  blocks' sums. Stated for any commutative additive monoid, and instantiated at 4096 = 16 × 256.
-/
import Mathlib.Algebra.BigOperators.Fin
import Mathlib.Data.Fintype.BigOperators
import Mathlib.Logic.Equiv.Fin.Basic

namespace Cert.LibBlockSum

variable {M : Type*} [AddCommMonoid M]

/-- Index `y` of block `x`, among `a` blocks of `b` indices, is below `a * b`. -/
theorem block_lt {a b : ℕ} (x : Fin a) (y : Fin b) : x.val * b + y.val < a * b :=
  calc x.val * b + y.val < x.val * b + b := Nat.add_lt_add_left y.isLt _
    _ = (x.val + 1) * b := (Nat.succ_mul _ _).symm
    _ ≤ a * b := Nat.mul_le_mul_right _ x.isLt

/-- A sum over `Fin (a * b)` is the sum over the `a` blocks of the sum over each block's `b` indices, index `y` of
    block `x` being `x * b + y`. -/
theorem sum_blocks_mul (a b : ℕ) (f : Fin (a * b) → M) :
    ∑ i : Fin (a * b), f i = ∑ x : Fin a, ∑ y : Fin b, f ⟨x.val * b + y.val, block_lt x y⟩ := by
  rw [← finProdFinEquiv.sum_comp, Fintype.sum_prod_type]
  refine Finset.sum_congr rfl fun x _ => Finset.sum_congr rfl fun y _ => congrArg f (Fin.ext ?_)
  show y.val + b * x.val = x.val * b + y.val
  rw [Nat.mul_comm, Nat.add_comm]

/-- A sum over 4096 indices is the sum over 16 blocks of the sum over each block's 256 indices. -/
theorem sum_blocks (f : Fin 4096 → M) :
    ∑ i : Fin 4096, f i = ∑ kb : Fin 16, ∑ kk : Fin 256, f ⟨kb.val * 256 + kk.val, by omega⟩ :=
  sum_blocks_mul 16 256 f

/-- The same with the blocks counted by a natural number below 16: a term whose index would fall outside the 4096
    (there is none) contributes zero. The first `n` blocks' partial sums are then sums over `Finset.range n`. -/
theorem sum_blocks_range (f : Fin 4096 → M) :
    ∑ i : Fin 4096, f i = ∑ kb ∈ Finset.range 16, ∑ kk : Fin 256,
      (if h : kb * 256 + kk.val < 4096 then f ⟨kb * 256 + kk.val, h⟩ else 0) := by
  rw [sum_blocks, Finset.sum_range]
  refine Finset.sum_congr rfl fun kb _ => Finset.sum_congr rfl fun kk _ => ?_
  rw [dif_pos (show kb.val * 256 + kk.val < 4096 by omega)]

end Cert.LibBlockSum
-- ==== Proof.KI.ValMm.lean ====
/-
  The matmul region's output array, read at the extended reals: whatever the buffers hold when the region is entered — an
  8192×4096 left operand X, a 4096×4096 right operand W and a bias row b — it leaves in its output array, at (row R, column C),
  the contraction ∑ᵢ X[R, i] · W[i, C] over all 4096 features plus b[C]. The grid's point t handles row block t / 32, column
  block (t / 16) mod 2 and contraction block t mod 16; the accumulator after that point holds the partial contraction over the
  blocks 0 … t mod 16, by induction along the grid; the 256-feature blocks regroup into the whole sum; the sixteen output blocks
  written back (at the last contraction block of each row and column block) tile the output array.
-/
import proofs.«135941_j44349832298615_2_alg».proof.Proof.KI.Mm
import proofs.«135941_j44349832298615_2_alg».proof.Proof.Payloads
import proofs.«135941_j44349832298615_2_alg».proof.Proof.LibBlockSum
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen Cert.KernelIdeal.Fr

variable (V : (c : Dev nD) → (b : Ref sig .tc) → Buf (Elt Ideal) ((c : Thread nD τ).loc b))

/-- The printed index maps over the 256 points. -/
theorem idx1 : ∀ t : Fin cfg1.N,
    win1_0.index t (0 : Fin 2) = t.val / 32 ∧ win1_0.index t (1 : Fin 2) = t.val % 16
    ∧ win1_1.index t (0 : Fin 2) = t.val % 16 ∧ win1_1.index t (1 : Fin 2) = t.val / 16 % 2
    ∧ win1_2.index t (0 : Fin 1) = t.val / 16 % 2
    ∧ win1_3.index t (0 : Fin 2) = t.val / 32 ∧ win1_3.index t (1 : Fin 2) = t.val / 16 % 2 :=
  (by decide +kernel : ∀ t : Fin grid1.N, _)

/-! ## The input blocks as entries of the operands -/

theorem iblkX_apply (c : Dev nD) (t : Fin cfg1.N) (r : Fin 1024) (k : Fin 256) (K : S8192x4096.Idx)
    (h0 : (K 0).val = t.val / 32 * 1024 + r.val) (h1 : (K 1).val = t.val % 16 * 256 + k.val) :
    (iblk1 V c 0 t : Vec Ideal S1024x256 .f32) (ix2 r k) = (V c main_v0 : S8192x4096.Idx → Elt Ideal .f32) K := by
  obtain ⟨e0, e1, -⟩ := idx1 t
  unfold iblk1
  rw [View.read_apply]
  show V c main_v0 _ = V c main_v0 _
  refine congrArg (V c main_v0) ?_
  funext a
  apply Fin.ext
  match a with
  | ⟨0, _⟩ => show win1_0.index t 0 * 1024 + 1 * r.val = (K 0).val; rw [e0, h0]; omega
  | ⟨1, _⟩ => show win1_0.index t 1 * 256 + 1 * k.val = (K 1).val; rw [e1, h1]; omega

theorem iblkW_apply (c : Dev nD) (t : Fin cfg1.N) (k : Fin 256) (n : Fin 2048) (K : S4096x4096.Idx)
    (h0 : (K 0).val = t.val % 16 * 256 + k.val) (h1 : (K 1).val = t.val / 16 % 2 * 2048 + n.val) :
    (iblk1 V c 1 t : Vec Ideal S256x2048 .bf16) (ix2 k n) = (V c main_v1 : S4096x4096.Idx → Elt Ideal .bf16) K := by
  obtain ⟨-, -, e2, e3, -⟩ := idx1 t
  unfold iblk1
  rw [View.read_apply]
  show V c main_v1 _ = V c main_v1 _
  refine congrArg (V c main_v1) ?_
  funext a
  apply Fin.ext
  match a with
  | ⟨0, _⟩ => show win1_1.index t 0 * 256 + 1 * k.val = (K 0).val; rw [e2, h0]; omega
  | ⟨1, _⟩ => show win1_1.index t 1 * 2048 + 1 * n.val = (K 1).val; rw [e3, h1]; omega

theorem iblkB_apply (c : Dev nD) (t : Fin cfg1.N) (n : Fin 2048) (K : S4096.Idx)
    (h0 : (K 0).val = t.val / 16 % 2 * 2048 + n.val) :
    (iblk1 V c 2 t : Vec Ideal S2048 .f32) (ix1 n) = (V c main_arg2 : S4096.Idx → Elt Ideal .f32) K := by
  obtain ⟨-, -, -, -, e4, -⟩ := idx1 t
  unfold iblk1
  rw [View.read_apply]
  show V c main_arg2 _ = V c main_arg2 _
  refine congrArg (V c main_arg2) ?_
  funext a
  apply Fin.ext
  match a with
  | ⟨0, _⟩ => show win1_2.index t 0 * 2048 + 1 * n.val = (K 0).val; rw [e4, h0]; omega

/-! ## The accumulator along the grid -/

/-- The region's three operands as arrays of extended reals: the left operand, the right operand, the bias row. -/
abbrev Xa (c : Dev nD) : S8192x4096.Idx → EReal := V c main_v0
abbrev Wa (c : Dev nD) : S4096x4096.Idx → EReal := V c main_v1
abbrev Ba (c : Dev nD) : S4096.Idx → EReal := V c main_arg2

/-- The operands extended by zero to all natural-number coordinates, so that partial sums can be written without bounds. -/
def Xn (c : Dev nD) (R q : ℕ) : EReal :=
  if h : R < 8192 ∧ q < 4096 then Xa V c (ix2 ⟨R, h.1⟩ ⟨q, h.2⟩) else 0
def Wn (c : Dev nD) (q C : ℕ) : EReal :=
  if h : q < 4096 ∧ C < 4096 then Wa V c (ix2 ⟨q, h.1⟩ ⟨C, h.2⟩) else 0
/-- The contraction over the 256 features of block `kb`. -/
def part (c : Dev nD) (R C kb : ℕ) : EReal := ∑ kk : Fin 256, Xn V c R (kb * 256 + kk.val) * Wn V c (kb * 256 + kk.val) C

theorem accAt_zero (c : Dev nD) (hn : 0 < cfg1.N) :
    accAt V c 0 hn = k1_pay2 (iblk1 V c 0 ⟨0, hn⟩) (iblk1 V c 1 ⟨0, hn⟩) (k1_pay1 (F := Ideal)) := rfl
theorem accAt_succ_first (c : Dev nD) (n : ℕ) (hn : n + 1 < cfg1.N) (h : (n + 1) % 16 = 0) :
    accAt V c (n + 1) hn = k1_pay2 (iblk1 V c 0 ⟨n + 1, hn⟩) (iblk1 V c 1 ⟨n + 1, hn⟩) (k1_pay1 (F := Ideal)) := by
  show (if (n + 1) % 16 = 0 then _ else _) = _
  exact if_pos h
theorem accAt_succ_next (c : Dev nD) (n : ℕ) (hn : n + 1 < cfg1.N) (h : ¬(n + 1) % 16 = 0) :
    accAt V c (n + 1) hn = k1_pay2 (iblk1 V c 0 ⟨n + 1, hn⟩) (iblk1 V c 1 ⟨n + 1, hn⟩) (accAt V c n (Nat.lt_of_succ_lt hn)) := by
  show (if (n + 1) % 16 = 0 then _ else _) = _
  exact if_neg h

/-- One point: the accumulator's entry grows by the point's block contraction. -/
theorem step (c : Dev nD) (t : Fin cfg1.N) (a : Vec Ideal S1024x2048 .f32) (r : Fin 1024) (nn : Fin 2048) :
    k1_pay2 (F := Ideal) (iblk1 V c 0 t) (iblk1 V c 1 t) a (ix2 r nn)
      = a (ix2 r nn) + part V c (t.val / 32 * 1024 + r.val) (t.val / 16 % 2 * 2048 + nn.val) (t.val % 16) := by
  have hN : t.val < 256 := lt_of_lt_of_eq t.isLt (show cfg1.N = 256 from N_1)
  have hr : r.val < 1024 := r.isLt
  have hnn : nn.val < 2048 := nn.isLt
  refine (Cert.KernelIdeal.Payloads.pay_acc (iblk1 V c 0 t) (iblk1 V c 1 t) a r nn).trans ?_
  refine congrArg (a (ix2 r nn) + ·) ?_
  unfold part
  refine Finset.sum_congr rfl fun kk _ => ?_
  have hkk : kk.val < 256 := kk.isLt
  have hR : t.val / 32 * 1024 + r.val < 8192 := by omega
  have hq : t.val % 16 * 256 + kk.val < 4096 := by omega
  have hC : t.val / 16 % 2 * 2048 + nn.val < 4096 := by omega
  rw [iblkX_apply V c t r kk (ix2 ⟨_, hR⟩ ⟨_, hq⟩) rfl rfl, iblkW_apply V c t kk nn (ix2 ⟨_, hq⟩ ⟨_, hC⟩) rfl rfl]
  unfold Xn Wn
  rw [dif_pos ⟨hR, hq⟩, dif_pos ⟨hq, hC⟩]

/-- After position `n` the accumulator holds the contraction over the feature blocks 0 … n mod 16 of the position's row and
    column blocks. -/
theorem acc_eq (c : Dev nD) : ∀ (n : ℕ) (hn : n < cfg1.N) (r : Fin 1024) (nn : Fin 2048),
    accAt V c n hn (ix2 r nn)
      = ∑ kb ∈ Finset.range (n % 16 + 1), part V c (n / 32 * 1024 + r.val) (n / 16 % 2 * 2048 + nn.val) kb := by
  intro n
  induction n with
  | zero =>
    intro hn r nn
    rw [accAt_zero V c hn, step V c ⟨0, hn⟩, Cert.KernelIdeal.Payloads.pay_zero, zero_add]
    show _ = ∑ kb ∈ Finset.range 1, _
    rw [Finset.sum_range_one]
    rfl
  | succ n ih =>
    intro hn r nn
    by_cases h : (n + 1) % 16 = 0
    · rw [accAt_succ_first V c n hn h, step V c ⟨n + 1, hn⟩, Cert.KernelIdeal.Payloads.pay_zero, zero_add]
      show part V c _ _ ((n + 1) % 16) = _
      rw [h, show 0 + 1 = 1 from rfl, Finset.sum_range_one]
    · rw [accAt_succ_next V c n hn h, step V c ⟨n + 1, hn⟩, ih (Nat.lt_of_succ_lt hn) r nn]
      show _ + part V c ((n + 1) / 32 * 1024 + r.val) ((n + 1) / 16 % 2 * 2048 + nn.val) ((n + 1) % 16) = _
      have e1 : (n + 1) % 16 = n % 16 + 1 := by omega
      have e2 : (n + 1) / 32 = n / 32 := by omega
      have e3 : (n + 1) / 16 % 2 = n / 16 % 2 := by omega
      rw [e1, e2, e3]
      exact (Finset.sum_range_succ _ _).symm

/-! ## The output array -/

/-- The linear layer over the region's entry contents: at (R, C) the whole contraction plus the bias. -/
def lin (c : Dev nD) : S8192x4096.Idx → EReal := fun j =>
  (∑ i : Fin 4096, Xa V c (ix2 (j 0) i) * Wa V c (ix2 i (j 1))) + Ba V c (ix1 (j 1))

/-- Where entry (r, n) of the output block at point t sits in the output array. -/
theorem emb1_val (t : Fin cfg1.N) (r : Fin 1024) (nn : Fin 2048) :
    ((((cfg1.win 3).blk t).view.emb (ix2 r nn)) 0).val = t.val / 32 * 1024 + r.val
    ∧ ((((cfg1.win 3).blk t).view.emb (ix2 r nn)) 1).val = t.val / 16 % 2 * 2048 + nn.val := by
  obtain ⟨-, -, -, -, -, e5, e6⟩ := idx1 t
  constructor
  · show win1_3.index t 0 * 1024 + 1 * r.val = _; rw [e5]; omega
  · show win1_3.index t 1 * 2048 + 1 * nn.val = _; rw [e6]; omega

/-- What a last contraction block writes back is its block of the linear layer. -/
theorem flushed1_eq (c : Dev nD) (t : Fin cfg1.N) (hf : (cfg1.win 3).flush t = true) :
    (dat1 V c).flushed 3 t = ((cfg1.win 3).blk t).view.read (Elt Ideal) (lin V c) := by
  have h15 : t.val % 16 = 15 := (flush1_3 t).mp hf
  have hN : t.val < 256 := lt_of_lt_of_eq t.isLt (show cfg1.N = 256 from N_1)
  show (cfg1.win 3).cut (grid1.coords t) ((dat1 V c).after 3 t) = _
  rw [after1_3]
  funext y
  obtain ⟨r, nn, rfl⟩ : ∃ (r : Fin 1024) (nn : Fin 2048), y = ix2 r nn := ⟨y 0, y 1, eq_ix2 y⟩
  have hr : r.val < 1024 := r.isLt
  have hnn : nn.val < 2048 := nn.isLt
  refine (Cert.KernelIdeal.Payloads.pay_out (accAt V c t.val t.isLt) (iblk1 V c 2 t) r nn).trans ?_
  rw [acc_eq V c t.val t.isLt r nn, View.read_apply, h15]
  obtain ⟨hE0, hE1⟩ := emb1_val t r nn
  have hR : t.val / 32 * 1024 + r.val < 8192 := by omega
  have hC : t.val / 16 % 2 * 2048 + nn.val < 4096 := by omega
  have hE0' : (((cfg1.win 3).blk t).view.emb (ix2 r nn)) 0 = (⟨t.val / 32 * 1024 + r.val, hR⟩ : Fin 8192) := Fin.ext hE0
  have hE1' : (((cfg1.win 3).blk t).view.emb (ix2 r nn)) 1 = (⟨t.val / 16 % 2 * 2048 + nn.val, hC⟩ : Fin 4096) := Fin.ext hE1
  unfold lin
  rw [hE0', hE1']
  rw [iblkB_apply V c t nn (ix1 ⟨_, hC⟩) rfl]
  refine congrArg (· + _) ?_
  rw [Cert.LibBlockSum.sum_blocks_range (fun i : Fin 4096 =>
    Xa V c (ix2 ⟨t.val / 32 * 1024 + r.val, hR⟩ i) * Wa V c (ix2 i ⟨t.val / 16 % 2 * 2048 + nn.val, hC⟩))]
  refine Finset.sum_congr rfl fun kb hkb => ?_
  have hkb' : kb < 16 := Finset.mem_range.mp hkb
  unfold part
  refine Finset.sum_congr rfl fun kk _ => ?_
  have hkk : kk.val < 256 := kk.isLt
  have hq : kb * 256 + kk.val < 4096 := by omega
  unfold Xn Wn
  rw [dif_pos ⟨hR, hq⟩, dif_pos ⟨hq, hC⟩, dif_pos hq]

/-- Every entry of the output array lies in the block of the last contraction point of its row and column blocks. -/
theorem cover1 (i : S8192x4096.Idx) : ∃ t : Fin cfg1.N, (cfg1.win 3).flush t = true ∧ i ∈ ((cfg1.win 3).blk t).view.set := by
  have h0 : (i 0).val < 8192 := (i 0).isLt
  have h1 : (i 1).val < 4096 := (i 1).isLt
  have hN : cfg1.N = 256 := N_1
  have ht : (i 0).val / 1024 * 32 + (i 1).val / 2048 * 16 + 15 < cfg1.N := by rw [hN]; omega
  refine ⟨⟨(i 0).val / 1024 * 32 + (i 1).val / 2048 * 16 + 15, ht⟩, (flush1_3 _).mpr (by show ((i 0).val / 1024 * 32 + (i 1).val / 2048 * 16 + 15) % 16 = 15; omega), ?_⟩
  obtain ⟨-, -, -, -, -, e5, e6⟩ := idx1 ⟨(i 0).val / 1024 * 32 + (i 1).val / 2048 * 16 + 15, ht⟩
  show i ∈ ((View.whole main_v2).slice (win1_3.rect ⟨(i 0).val / 1024 * 32 + (i 1).val / 2048 * 16 + 15, ht⟩)).set
  rw [View.set_slice_whole, Rect.mem_set_unit]
  intro a
  match a with
  | ⟨0, _⟩ =>
    show win1_3.index ⟨(i 0).val / 1024 * 32 + (i 1).val / 2048 * 16 + 15, ht⟩ 0 * 1024 ≤ (i 0).val ∧ (i 0).val < win1_3.index ⟨(i 0).val / 1024 * 32 + (i 1).val / 2048 * 16 + 15, ht⟩ 0 * 1024 + 1024
    rw [e5]
    show ((i 0).val / 1024 * 32 + (i 1).val / 2048 * 16 + 15) / 32 * 1024 ≤ (i 0).val ∧ (i 0).val < ((i 0).val / 1024 * 32 + (i 1).val / 2048 * 16 + 15) / 32 * 1024 + 1024
    omega
  | ⟨1, _⟩ =>
    show win1_3.index ⟨(i 0).val / 1024 * 32 + (i 1).val / 2048 * 16 + 15, ht⟩ 1 * 2048 ≤ (i 1).val ∧ (i 1).val < win1_3.index ⟨(i 0).val / 1024 * 32 + (i 1).val / 2048 * 16 + 15, ht⟩ 1 * 2048 + 2048
    rw [e6]
    show ((i 0).val / 1024 * 32 + (i 1).val / 2048 * 16 + 15) / 16 % 2 * 2048 ≤ (i 1).val ∧ (i 1).val < ((i 0).val / 1024 * 32 + (i 1).val / 2048 * 16 + 15) / 16 % 2 * 2048 + 2048
    omega

/-- The region's output array after its last point: the linear layer over the entry contents. -/
theorem final1 (c : Dev nD) : (dat1 V c).arrAt 3 cfg1.N = lin V c :=
  (dat1 V c).arrAt_eq_of_cover 3 (lin V c) (fun t hf => flushed1_eq V c t hf) cover1

end Cert.KernelIdeal.Val

end
-- ==== Proof.KI.Value.lean ====
/-
  The whole program's result at the extended reals. The input is reshaped to 8192 rows; the first region leaves the transposed
  binarized weight in its output array; the second region, entered from there, leaves the linear layer of the reshaped input
  over that array plus the bias; the result is reshaped back. Read index by index — a reshape moves an entry to the entry of
  equal row-major position — the result array is the specification's: at (p, s, o) the contraction of input row (p, s) with
  weight row o binarized, plus bias o.
-/
import proofs.«135941_j44349832298615_2_alg».proof.Proof.KI.Run
import proofs.«135941_j44349832298615_2_alg».proof.Proof.KI.ValBin
import proofs.«135941_j44349832298615_2_alg».proof.Proof.KI.ValMm
import proofs.«135941_j44349832298615_2_alg».proof.Proof.Spec
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen Cert.KernelIdeal.Fr

variable (m : (ℓ : Loc nD τ sig) → Buf (Elt Ideal) ℓ)

/-- The three arguments as arrays of extended reals. -/
abbrev argX (c : Dev nD) : S4x2048x4096.Idx → EReal := m ((c : Thread nD τ).loc main_arg0)
abbrev argW (c : Dev nD) : S4096x4096.Idx → EReal := m ((c : Thread nD τ).loc main_arg1)
abbrev argB (c : Dev nD) : S4096.Idx → EReal := m ((c : Thread nD τ).loc main_arg2)

/-! ## The buffers when each region is entered -/

/-- The first reshape writes only the two-dimensional copy of the input. -/
theorem V1_arg1 (c : Dev nD) : V1 m c main_arg1 = m ((c : Thread nD τ).loc main_arg1) :=
  (StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W1 m c (Proc.devRef .tc main_arg1) = W0 m c (Proc.devRef .tc main_arg1)).trans rfl
theorem V1_arg2 (c : Dev nD) : V1 m c main_arg2 = m ((c : Thread nD τ).loc main_arg2) :=
  (StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W1 m c (Proc.devRef .tc main_arg2) = W0 m c (Proc.devRef .tc main_arg2)).trans rfl

/-- The two-dimensional copy of the input is its reshape. -/
theorem V1_v0 (c : Dev nD) :
    (V1 m c main_v0 : S8192x4096.Idx → EReal) = shapeCast S8192x4096 (argX m c) shapeCasts_S4x2048x4096_S8192x4096 := by
  show StableHlo.after hostOps0 (W0 m c) (Proc.devRef .tc main_v0) = _
  after_results
  rfl

/-- Row 2048·p + s of the reshaped input is row (p, s) of the input. -/
theorem V1_v0_apply (c : Dev nD) (p : Fin 4) (s : Fin 2048) (i : Fin 4096) (hR : p.val * 2048 + s.val < 8192) :
    (V1 m c main_v0 : S8192x4096.Idx → EReal) (ix2 ⟨p.val * 2048 + s.val, hR⟩ i) = argX m c (ix3 p s i) := by
  rw [V1_v0]
  exact shapeCast_apply _ _ (ix2 ⟨p.val * 2048 + s.val, hR⟩ i) (ix3 p s i) (by
    rw [Shape.rowMajor_val_two, Shape.rowMajor_val_three]
    show (p.val * 2048 + s.val) * 4096 + i.val = (p.val * 2048 + s.val) * 4096 + i.val
    rfl)

/-- What the matmul region finds: the reshaped input as the first region found it, the transposed binarized weight the first
    region left, the bias as launched. -/
theorem V2_v0 (c : Dev nD) : V2 m c main_v0 = V1 m c main_v0 := W2_of_ne m c main_v0 (by decide)
theorem V2_arg2 (c : Dev nD) : V2 m c main_arg2 = m ((c : Thread nD τ).loc main_arg2) :=
  (W2_of_ne m c main_arg2 (by decide)).trans (V1_arg2 m c)
theorem V2_v1 (c : Dev nD) : (V2 m c main_v1 : S4096x4096.Idx → EReal) = binT (argW m c) := by
  have e : (V2 m c main_v1 : S4096x4096.Idx → EReal) = (dat0 (V1 m) c).arrAt 1 cfg0.N := W2_arr m c 1
  rw [e, final0 (V1 m) c, V1_arg1]

/-- What the matmul region leaves in its output array. -/
theorem W3_v2 (c : Dev nD) : (W3 m c (Proc.devRef .tc main_v2) : S8192x4096.Idx → EReal) = lin (V2 m) c := by
  have e : (W3 m c (Proc.devRef .tc main_v2) : S8192x4096.Idx → EReal) = (dat1 (V2 m) c).arrAt 3 cfg1.N := W3_arr m c 3
  rw [e, final1 (V2 m) c]

/-! ## The result -/

/-- The result array at the end of @main is the specification's linear layer over the binarized weight. -/
theorem result_eq (c : Dev nD) :
    (W4 m c (Proc.devRef .tc main_v3) : S4x2048x4096.Idx → EReal) = Cert.Spec.outArr (argX m c) (argW m c) (argB m c) := by
  have e4 : (W4 m c (Proc.devRef .tc main_v3) : S4x2048x4096.Idx → EReal)
      = shapeCast S4x2048x4096 (W3 m c (Proc.devRef .tc main_v2) : S8192x4096.Idx → EReal) shapeCasts_S8192x4096_S4x2048x4096 := by
    show StableHlo.after hostOps2 (W3 m c) (Proc.devRef .tc main_v3) = _
    after_results
    rfl
  rw [e4, W3_v2]
  funext j
  obtain ⟨p, s, o, rfl⟩ : ∃ (p : Fin 4) (s : Fin 2048) (o : Fin 4096), j = ix3 p s o := ⟨j 0, j 1, j 2, eq_ix3 j⟩
  have hp : p.val < 4 := p.isLt
  have hs : s.val < 2048 := s.isLt
  have hR : p.val * 2048 + s.val < 8192 := by omega
  refine (shapeCast_apply _ _ (ix3 p s o) (ix2 ⟨p.val * 2048 + s.val, hR⟩ o) (by
    rw [Shape.rowMajor_val_two, Shape.rowMajor_val_three]
    show (p.val * 2048 + s.val) * 4096 + o.val = (p.val * 2048 + s.val) * 4096 + o.val
    rfl)).trans ?_
  show (∑ i : Fin 4096, Xa (V2 m) c (ix2 ⟨p.val * 2048 + s.val, hR⟩ i) * Wa (V2 m) c (ix2 i o)) + Ba (V2 m) c (ix1 o)
    = (∑ i : Fin 4096, argX m c (ix3 p s i) * Cert.Spec.binRow (Cert.Spec.wrow (argW m c) o) i) + argB m c (ix1 o)
  have hB : Ba (V2 m) c = argB m c := V2_arg2 m c
  have hW : Wa (V2 m) c = binT (argW m c) := V2_v1 m c
  rw [hB, hW]
  refine congrArg (· + _) (Finset.sum_congr rfl fun i _ => ?_)
  have hX : Xa (V2 m) c (ix2 ⟨p.val * 2048 + s.val, hR⟩ i) = argX m c (ix3 p s i) := by
    show (V2 m c main_v0 : S8192x4096.Idx → EReal) _ = _
    rw [V2_v0]
    exact V1_v0_apply m c p s i hR
  rw [hX]
  rfl

end Cert.KernelIdeal.Val

end
-- ==== Proof.RefValue.lean ====
/-
  The reference's result array, read index by index, is the specification's linear layer over binarized weights.
-/
import proofs.«135941_j44349832298615_2_alg».proof.Proof.Gen.ReferenceIdeal.Read
import proofs.«135941_j44349832298615_2_alg».proof.Proof.Spec

noncomputable section

namespace Cert.RefValue

open Idealize.ShloMosaic Idealize.ShloMosaic.TcCoe Idealize.SL.Sem Idealize.ShloMosaic.ValueIdx
open Cert.ReferenceIdeal Cert.ReferenceIdeal.Gen Cert.ReferenceIdeal.Read Cert.Spec

/-- The first row sum: entry `o` is the sum of weight row `o` (the zero initial value adds nothing). -/
theorem v0_apply (w : (⟨S4096x4096, .f32⟩ : BufTy).Contents (Elt Ideal)) (i : S4096.Idx) :
    val_main_v0 (F := Ideal) w i = ∑ k : Fin 4096, wrow w (i 0) k := by
  rw [val_main_v0_apply, val_main_cst_apply, Ideal.ofBits_def, Ideal.ofBits_zero_f32, zero_add]
  refine Finset.sum_congr rfl fun k _ => congrArg w (funext fun a => ?_)
  match a with
  | ⟨0, _⟩ => rfl
  | ⟨1, _⟩ => rfl

/-- The row mean: entry `(o, 0)` of the quotient is the mean of weight row `o`. -/
theorem v3_apply (w : (⟨S4096x4096, .f32⟩ : BufTy).Contents (Elt Ideal)) (i : S4096x1.Idx) :
    val_main_v3 (F := Ideal) w i = rowMean (wrow w (i 0)) := by
  rw [val_main_v3_apply, val_main_v1_apply, v0_apply, val_main_v2_apply, val_main_cst_0_apply]
  rfl

/-- The centred weight: entry `(o, i)` is weight `(o, i)` less the mean of row `o`. -/
theorem v5_apply (w : (⟨S4096x4096, .f32⟩ : BufTy).Contents (Elt Ideal)) (i : S4096x4096.Idx) :
    val_main_v5 (F := Ideal) w i = centred (wrow w (i 0)) (i 1) := by
  rw [val_main_v5_apply, val_main_v4_apply, v3_apply, Ideal.subf_def]
  conv_lhs => rw [eq_ix2 i]
  rfl

/-- The second row sum: entry `o` is the sum of the absolute centred entries of row `o`. -/
theorem v7_apply (w : (⟨S4096x4096, .f32⟩ : BufTy).Contents (Elt Ideal)) (i : S4096.Idx) :
    val_main_v7 (F := Ideal) w i = ∑ k : Fin 4096, max (centred (wrow w (i 0)) k) (-(centred (wrow w (i 0)) k)) := by
  rw [val_main_v7_apply, val_main_cst_1_apply, Ideal.ofBits_def, Ideal.ofBits_zero_f32, zero_add]
  refine Finset.sum_congr rfl fun k _ => ?_
  rw [val_main_v6_apply, v5_apply, Ideal.hostAbsf_def, Ideal.absf_def]
  rfl

/-- The row scale: entry `(o, 0)` of the second quotient is the mean absolute deviation of row `o`. -/
theorem v10_apply (w : (⟨S4096x4096, .f32⟩ : BufTy).Contents (Elt Ideal)) (i : S4096x1.Idx) :
    val_main_v10 (F := Ideal) w i = rowScale (wrow w (i 0)) := by
  rw [val_main_v10_apply, val_main_v8_apply, v7_apply, val_main_v9_apply, val_main_cst_2_apply]
  rfl

/-- The binarized weight: entry `(o, i)` is the sign of the centred entry times the scale of row `o`. -/
theorem v13_apply (w : (⟨S4096x4096, .f32⟩ : BufTy).Contents (Elt Ideal)) (i : S4096x4096.Idx) :
    val_main_v13 (F := Ideal) w i = binRow (wrow w (i 0)) (i 1) := by
  rw [val_main_v13_apply, val_main_v11_apply, val_main_v12_apply, v5_apply, v10_apply, Ideal.mulf_def,
    Ideal.hostUnary_sign_def]
  rfl

/-- The reference's result term is the specification's array. -/
theorem result_eq (x : (⟨S4x2048x4096, .f32⟩ : BufTy).Contents (Elt Ideal)) (w : (⟨S4096x4096, .f32⟩ : BufTy).Contents (Elt Ideal))
    (b : (⟨S4096, .f32⟩ : BufTy).Contents (Elt Ideal)) :
    val_main_v17 (F := Ideal) x w b = outArr x w b := by
  funext j
  rw [val_main_v17_apply, val_main_v14_apply, val_main_v16_apply, val_main_v15_apply, Ideal.addf_def]
  unfold outArr outAt
  refine congrArg₂ (· + ·) (Finset.sum_congr rfl fun k _ => ?_) (congrArg b (funext fun a => ?_))
  · rw [v13_apply]
    refine congrArg₂ (· * ·) (congrArg x (funext fun a => ?_)) rfl
    match a with
    | ⟨0, _⟩ => rfl
    | ⟨1, _⟩ => rfl
    | ⟨2, _⟩ => rfl
  · match a with
    | ⟨0, _⟩ => rfl

/-- On every device, from any memory with zero counters, every weakly fair execution of the reference terminates with
    its result array the specification's linear layer of the three argument arrays, and the arguments unchanged. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
      r.2.mem ((c.tc : Thread Cert.ReferenceIdeal.nD Cert.ReferenceIdeal.τ).loc Cert.ReferenceIdeal.main_v17)
        = Cert.Spec.outArr (m ((c.tc : Thread Cert.ReferenceIdeal.nD Cert.ReferenceIdeal.τ).loc Cert.ReferenceIdeal.main_arg0))
            (m ((c.tc : Thread Cert.ReferenceIdeal.nD Cert.ReferenceIdeal.τ).loc Cert.ReferenceIdeal.main_arg1))
            (m ((c.tc : Thread Cert.ReferenceIdeal.nD Cert.ReferenceIdeal.τ).loc Cert.ReferenceIdeal.main_arg2))
      ∧ r.2.mem ((c.tc : Thread Cert.ReferenceIdeal.nD Cert.ReferenceIdeal.τ).loc Cert.ReferenceIdeal.main_arg0)
        = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1)
        = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2)
        = m ((c.tc : Thread Cert.ReferenceIdeal.nD Cert.ReferenceIdeal.τ).loc Cert.ReferenceIdeal.main_arg2)) :=
  (θ_run (Cert.ReferenceIdeal.defs (F := Ideal)) _ _).mono
    (fun _ h c => ⟨(h c).1.trans ((val_main_v17_eq (F := Ideal) _ _ _).trans (result_eq _ _ _)), (h c).2⟩)
    (Cert.ReferenceIdeal.Value.run (F := Ideal) m ρ)

end Cert.RefValue

end
-- ==== Proof.lean ====
/-
  The certificate: a linear layer over row-binarized weights, computed by two tiled kernels, against its plain reference.

  Both the program as printed and its idealization run to the end without a fault and leave their three argument arrays
  unchanged: @main is a reshape, a weight-binarization region (sixteen points, each binarizing 256 weight rows and storing
  them transposed), a matmul region (8 × 2 × 16 points with an accumulator carried along the contraction axis, the bias added
  and the block stored at the last contraction block) and a reshape back.

  The idealization differs from the printed program in one place: "one with the sign bit of v" read through the float's word
  is written as the choice between −1 and 1 by v < 0; that is the one statement of `preserves`.

  At the extended reals the two programs agree. The reference centres each weight row at its mean, takes signs, rescales by
  the row's mean absolute deviation, contracts each input row with each binarized weight row over all 4096 features at once and
  adds the bias. The kernel does the same row by row in its first region, and in its second contracts 256 features at a time
  into an accumulator that starts from zero: sixteen partial contractions regroup into the whole one, because sums of extended
  reals commute and associate; no finiteness of the inputs is used.
-/
import proofs.«135941_j44349832298615_2_alg».proof.Defs
import proofs.«135941_j44349832298615_2_alg».proof.Proof.Gen.Kernel
import proofs.«135941_j44349832298615_2_alg».proof.Proof.Gen.KernelIdeal
import proofs.«135941_j44349832298615_2_alg».proof.Proof.Gen.ReferenceIdeal
import proofs.«135941_j44349832298615_2_alg».proof.Proof.Gen.Pre_finite_inputs
import proofs.«135941_j44349832298615_2_alg».proof.Proof.K.Run
import proofs.«135941_j44349832298615_2_alg».proof.Proof.KI.Run
import proofs.«135941_j44349832298615_2_alg».proof.Proof.KI.Value
import proofs.«135941_j44349832298615_2_alg».proof.Proof.RefValue
import Idealize.ShloMosaic.Adequacy
import Idealize.ShloMosaic.Init

noncomputable section

namespace Cert.Proof

open Idealize.ShloMosaic Idealize.SL.Sem

/-- The printed program runs and leaves its arguments unchanged. -/
theorem frame_k : Cert.frame_Kernel := fun m ρ _ => Cert.Kernel.Fr.frame (F := Bits) m ρ

/-- So does its idealization. -/
theorem frame_ki : Cert.frame_KernelIdeal := fun m ρ _ => Cert.KernelIdeal.Fr.frame (F := Ideal) m ρ

/-- The reference is a straight line of host operations: its run with the result dropped. -/
theorem frame_ri : Cert.frame_ReferenceIdeal := fun m ρ _ =>
  (θ_run Cert.ReferenceIdeal.defs _ _).mono (fun _ h c => (h c).2) (Cert.RefValue.run m ρ)

/-- The one rewrite of the idealization: ±1 by the sign bit is ±1 by the comparison with zero. -/
theorem preserves : Cert.preserves_Kernel_KernelIdeal := IdealRules.sign_bit.statement Cert.KernelIdeal.S256x4096 .f32

/-- Both idealized programs end with the specification's array of the same three arguments. -/
theorem algebraic : Cert.algebraic_KernelIdeal_ReferenceIdeal := by
  intro m ρ m' ρ' _ hagree
  refine ⟨fun c => Cert.Spec.outArr (Cert.KernelIdeal.Val.argX m c) (Cert.KernelIdeal.Val.argW m c) (Cert.KernelIdeal.Val.argB m c), ?_, ?_⟩
  · exact (θ_run Cert.KernelIdeal.defs _ _).mono
      (fun _ h c => ⟨(h c).1.trans (Cert.KernelIdeal.Val.result_eq m c), (h c).2⟩)
      (Cert.KernelIdeal.Fr.run_main (F := Ideal) m ρ)
  · refine (θ_run Cert.ReferenceIdeal.defs _ _).mono (fun _ h c => ⟨(h c).1.trans ?_, (h c).2⟩) (Cert.RefValue.run m' ρ')
    rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
